-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x36 : Shape := ⟨3, ![4096, 3, 36]⟩
abbrev S4096x4096x3 : Shape := ⟨3, ![4096, 4096, 3]⟩
abbrev S36x6 : Shape := ⟨2, ![36, 6]⟩
abbrev S6 : Shape := ⟨1, ![6]⟩
abbrev S18x256 : Shape := ⟨2, ![18, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S4096x3x36 : S_.BroadcastsInDim S4096x3x36 (![] : Fin 0 → Fin S4096x3x36.rank)
  reducesTo_S4096x3x36_S_d0_1_2 : S4096x3x36.ReducesTo [0, 1, 2] S_
  h_S_ : 0 < S_.numel
  bcast_S_S4096x4096x3 : S_.BroadcastsInDim S4096x4096x3 (![] : Fin 0 → Fin S4096x4096x3.rank)
  reducesTo_S4096x4096x3_S_d0_1_2 : S4096x4096x3.ReducesTo [0, 1, 2] S_
  bcast_S_S36x6 : S_.BroadcastsInDim S36x6 (![] : Fin 0 → Fin S36x6.rank)
  reducesTo_S36x6_S_d0_1 : S36x6.ReducesTo [0, 1] S_
  bcast_S_S6 : S_.BroadcastsInDim S6 (![] : Fin 0 → Fin S6.rank)
  reducesTo_S6_S_d0 : S6.ReducesTo [0] S_
  bcast_S_S18x256 : S_.BroadcastsInDim S18x256 (![] : Fin 0 → Fin S18x256.rank)
  reducesTo_S18x256_S_d0_1 : S18x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256x2 .f32) (main_arg11 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x2 .f32 := Host.absf main_arg10
  let main_cst_18 : FVec F S_ .f32 := constant S_ .f32 0x7F800000#32
  let main_v50 : FVec F S256x2 .f32 := broadcastInDim S256x2 ![] bcast_S_S256x2 main_cst_18
  fn_part3 (F := F) main_arg11 main_v48 main_v49 main_v50

def fn_part1 {F : FTy → Type} [FloatOps F] (main_arg4 : FVec F S18x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S18x256 .f32 := Host.absf main_arg4
  let main_cst_6 : FVec F S_ .f32 := constant S_ .f32 0x7F800000#32
  let main_v20 : FVec F S18x256 .f32 := broadcastInDim S18x256 ![] bcast_S_S18x256 main_cst_6
  let main_v21 : IVec S18x256 1 := cmpf .olt main_v19 main_v20
  let main_c_7 : IVec S_ 1 := constantI S_ 1 1#1
  let main_v22 : IVec S_ 1 := (fun x v => Host.reduce IntOp.andi x v reducesTo_S18x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x3x36 .f32) (main_arg1 : FVec F S4096x4096x3 .f32) (main_arg2 : FVec F S36x6 .f32) (main_arg3 : FVec F S6 .f32) (main_arg4 : FVec F S18x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) : IVec S_ 1 :=
  let main_v0 : FVec F S4096x3x36 .f32 := Host.absf main_arg0
  let main_cst : FVec F S_ .f32 := constant S_ .f32 0x7F800000#32
  let main_v1 : FVec F S4096x3x36 .f32 := broadcastInDim S4096x3x36 ![] bcast_S_S4096x3x36 main_cst
  let main_v2 : IVec S4096x3x36 1 := cmpf .olt main_v0 main_v1
  let main_c : IVec S_ 1 := constantI S_ 1 1#1
  let main_v3 : IVec S_ 1 := (fun x v => Host.reduce IntOp.andi x v reducesTo_S4096x3x36_S_d0_1_2 h_S_) main_v2 main_c
  let main_v4 : FVec F S4096x4096x3 .f32 := Host.absf main_arg1
  let main_cst_0 : FVec F S_ .f32 := constant S_ .f32 0x7F800000#32
  let main_v5 : FVec F S4096x4096x3 .f32 := broadcastInDim S4096x4096x3 ![] bcast_S_S4096x4096x3 main_cst_0
  let main_v6 : IVec S4096x4096x3 1 := cmpf .olt main_v4 main_v5
  let main_c_1 : IVec S_ 1 := constantI S_ 1 1#1
  let main_v7 : IVec S_ 1 := (fun x v => Host.reduce IntOp.andi x v reducesTo_S4096x4096x3_S_d0_1_2 h_S_) main_v6 main_c_1
  let main_v8 : IVec S_ 1 := andi main_v3 main_v7
  let main_v9 : FVec F S36x6 .f32 := Host.absf main_arg2
  let main_cst_2 : FVec F S_ .f32 := constant S_ .f32 0x7F800000#32
  let main_v10 : FVec F S36x6 .f32 := broadcastInDim S36x6 ![] bcast_S_S36x6 main_cst_2
  let main_v11 : IVec S36x6 1 := cmpf .olt main_v9 main_v10
  let main_c_3 : IVec S_ 1 := constantI S_ 1 1#1
  let main_v12 : IVec S_ 1 := (fun x v => Host.reduce IntOp.andi x v reducesTo_S36x6_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_arg8 main_arg9 main_arg10 main_arg11 main_v13 main_v16
-- ==== Kernel.lean ====
abbrev S4096x3x36 : Shape := ⟨3, ![4096, 3, 36]⟩
abbrev S4096x4096x3 : Shape := ⟨3, ![4096, 4096, 3]⟩
abbrev S36x6 : Shape := ⟨2, ![36, 6]⟩
abbrev S6 : Shape := ⟨1, ![6]⟩
abbrev S18x256 : Shape := ⟨2, ![18, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S12288x36 : Shape := ⟨2, ![12288, 36]⟩
abbrev S12288x6 : Shape := ⟨2, ![12288, 6]⟩
abbrev S1x6 : Shape := ⟨2, ![1, 6]⟩
abbrev S4096x3x6 : Shape := ⟨3, ![4096, 3, 6]⟩
abbrev S3x3 : Shape := ⟨2, ![3, 3]⟩
abbrev S_ : Shape := ⟨0, ![]⟩
abbrev S4096x3x1x6 : Shape := ⟨4, ![4096, 3, 1, 6]⟩
abbrev S1x3x3x1 : Shape := ⟨4, ![1, 3, 3, 1]⟩
abbrev S4096x3x3x6 : Shape := ⟨4, ![4096, 3, 3, 6]⟩
abbrev S12288x18 : Shape := ⟨2, ![12288, 18]⟩
abbrev S1x3x3 : Shape := ⟨3, ![1, 3, 3]⟩
abbrev S4096x3x3 : Shape := ⟨3, ![4096, 3, 3]⟩
abbrev S12288x3 : Shape := ⟨2, ![12288, 3]⟩
abbrev S12288x2 : Shape := ⟨2, ![12288, 2]⟩
abbrev S12288x20 : Shape := ⟨2, ![12288, 20]⟩
abbrev S20x12288 : Shape := ⟨2, ![20, 12288]⟩
abbrev S4096x12288 : Shape := ⟨2, ![4096, 12288]⟩
abbrev S1x256 : Shape := ⟨2, ![1, 256]⟩
abbrev S1x2 : Shape := ⟨2, ![1, 2]⟩
abbrev S4096x18 : Shape := ⟨2, ![4096, 18]⟩
abbrev S4096x2 : Shape := ⟨2, ![4096, 2]⟩
abbrev S256x12288 : Shape := ⟨2, ![256, 12288]⟩
abbrev S256x18 : Shape := ⟨2, ![256, 18]⟩
abbrev S256x20 : Shape := ⟨2, ![256, 20]⟩
abbrev S256x3072 : Shape := ⟨2, ![256, 3072]⟩
abbrev S20x3072 : Shape := ⟨2, ![20, 3072]⟩
abbrev S256x6 : Shape := ⟨2, ![256, 6]⟩
abbrev S256x1 : Shape := ⟨2, ![256, 1]⟩

abbrev nBuf : Space → Nat
  | .hbm => 44
  | .vmem => 15
  | .smem => 0
  | _ => 0

abbrev bufTy : (tb : Table) → Fin (tcTables nBuf tb) → BufTy
  | .hbm, ⟨0, _⟩ => ⟨S4096x3x36, .f32⟩
  | .hbm, ⟨1, _⟩ => ⟨S4096x4096x3, .f32⟩
  | .hbm, ⟨2, _⟩ => ⟨S36x6, .f32⟩
  | .hbm, ⟨3, _⟩ => ⟨S6, .f32⟩
  | .hbm, ⟨4, _⟩ => ⟨S18x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S12288x36, .f32⟩
  | .hbm, ⟨13, _⟩ => ⟨S12288x6, .f32⟩
  | .hbm, ⟨14, _⟩ => ⟨S1x6, .f32⟩
  | .hbm, ⟨15, _⟩ => ⟨S12288x6, .f32⟩
  | .hbm, ⟨16, _⟩ => ⟨S12288x6, .f32⟩
  | .hbm, ⟨17, _⟩ => ⟨S4096x3x6, .f32⟩
  | .hbm, ⟨18, _⟩ => ⟨S3x3, .i32⟩
  | .hbm, ⟨19, _⟩ => ⟨S3x3, .i32⟩
  | .hbm, ⟨20, _⟩ => ⟨S_, .i32⟩
  | .hbm, ⟨21, _⟩ => ⟨S3x3, .i32⟩
  | .hbm, ⟨22, _⟩ => ⟨S3x3, .i32⟩
  | .hbm, ⟨23, _⟩ => ⟨S3x3, .i1⟩
  | .hbm, ⟨24, _⟩ => ⟨S3x3, .f32⟩
  | .hbm, ⟨25, _⟩ => ⟨S4096x3x1x6, .f32⟩
  | .hbm, ⟨26, _⟩ => ⟨S1x3x3x1, .f32⟩
  | .hbm, ⟨27, _⟩ => ⟨S4096x3x3x6, .f32⟩
  | .hbm, ⟨28, _⟩ => ⟨S4096x3x3x6, .f32⟩
  | .hbm, ⟨29, _⟩ => ⟨S4096x3x3x6, .f32⟩
  | .hbm, ⟨30, _⟩ => ⟨S12288x18, .f32⟩
  | .hbm, ⟨31, _⟩ => ⟨S1x3x3, .f32⟩
  | .hbm, ⟨32, _⟩ => ⟨S4096x3x3, .f32⟩
  | .hbm, ⟨33, _⟩ => ⟨S12288x3, .f32⟩
  | .hbm, ⟨34, _⟩ => ⟨S12288x2, .f32⟩
  | .hbm, ⟨35, _⟩ => ⟨S12288x20, .f32⟩
  | .hbm, ⟨36, _⟩ => ⟨S20x12288, .f32⟩
  | .hbm, ⟨37, _⟩ => ⟨S4096x12288, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x2, .f32⟩
  | .hbm, ⟨42, _⟩ => ⟨S4096x18, .f32⟩
  | .hbm, ⟨43, _⟩ => ⟨S4096x2, .f32⟩
  | .local _ .vmem, ⟨0, _⟩ => ⟨S256x12288, .f32⟩
  | .local _ .vmem, ⟨1, _⟩ => ⟨S256x12288, .f32⟩
  | .local _ .vmem, ⟨2, _⟩ => ⟨S20x12288, .f32⟩
  | .local _ .vmem, ⟨3, _⟩ => ⟨S18x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x2, .f32⟩
  | .local _ .vmem, ⟨10, _⟩ => ⟨S1x2, .f32⟩
  | .local _ .vmem, ⟨11, _⟩ => ⟨S256x18, .f32⟩
  | .local _ .vmem, ⟨12, _⟩ => ⟨S256x18, .f32⟩
  | .local _ .vmem, ⟨13, _⟩ => ⟨S256x2, .f32⟩
  | .local _ .vmem, ⟨14, _⟩ => ⟨S256x2, .f32⟩
  | _, _ => ⟨S4096x3x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c3072_i32 : BitVec 32 := 3072#32
  let v1 : BitVec 32 := Scalar.muli c0_i32 c3072_i32
  v1
def k0_off1 (c0_i32 : BitVec 32) : Fin 2 → Nat :=
  let c0 : Index := 0#32
  let c3072_i32 : BitVec 32 := 3072#32
  let v1 : BitVec 32 := Scalar.muli c0_i32 c3072_i32
  let v2 : BitVec 32 := v1
  let v3 : Index := Scalar.indexCast v2
  ![0, v3.toNat]
def k0_off2 (c0_i32 : BitVec 32) : Fin 2 → Nat :=
  let c0_0 : Index := 0#32
  let c3072_i32 : BitVec 32 := 3072#32
  let v1 : BitVec 32 := Scalar.muli c0_i32 c3072_i32
  let v2 : BitVec 32 := v1
  let v7 : Index := Scalar.indexCast v2
  ![0, v7.toNat]
def k0_mult2 : BitVec 32 :=
  let c1_i32 : BitVec 32 := 1#32
  let c3072_i32_2 : BitVec 32 := 3072#32
  let v13 : BitVec 32 := Scalar.muli c1_i32 c3072_i32_2
  v13
def k0_mult3 : BitVec 32 :=
  let c2_i32 : BitVec 32 := 2#32
  let c3072_i32_6 : BitVec 32 := 3072#32
  let v25 : BitVec 32 := Scalar.muli c2_i32 c3072_i32_6
  v25
def k0_mult4 : BitVec 32 :=
  let c3_i32 : BitVec 32 := 3#32
  let c3072_i32_10 : BitVec 32 := 3072#32
  let v37 : BitVec 32 := Scalar.muli c3_i32 c3072_i32_10
  v37
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S18x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x18 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x3x36_S12288x36 : S4096x3x36.ShapeCasts S12288x36
  bcast_S6_S1x6_1 : S6.BroadcastsInDim S1x6 (![1] : Fin 1 → Fin S1x6.rank)
  bcast_S1x6_S12288x6_0_1 : S1x6.BroadcastsInDim S12288x6 (![0, 1] : Fin 2 → Fin S12288x6.rank)
  shapeCasts_S12288x6_S4096x3x6 : S12288x6.ShapeCasts S4096x3x6
  bcast_S_S3x3 : S_.BroadcastsInDim S3x3 (![] : Fin 0 → Fin S3x3.rank)
  bcast_S4096x3x6_S4096x3x1x6_0_1_3 : S4096x3x6.BroadcastsInDim S4096x3x1x6 (![0, 1, 3] : Fin 3 → Fin S4096x3x1x6.rank)
  bcast_S3x3_S1x3x3x1_1_2 : S3x3.BroadcastsInDim S1x3x3x1 (![1, 2] : Fin 2 → Fin S1x3x3x1.rank)
  bcast_S4096x3x1x6_S4096x3x3x6_0_1_2_3 : S4096x3x1x6.BroadcastsInDim S4096x3x3x6 (![0, 1, 2, 3] : Fin 4 → Fin S4096x3x3x6.rank)
  bcast_S1x3x3x1_S4096x3x3x6_0_1_2_3 : S1x3x3x1.BroadcastsInDim S4096x3x3x6 (![0, 1, 2, 3] : Fin 4 → Fin S4096x3x3x6.rank)
  shapeCasts_S4096x3x3x6_S12288x18 : S4096x3x3x6.ShapeCasts S12288x18
  bcast_S3x3_S1x3x3_1_2 : S3x3.BroadcastsInDim S1x3x3 (![1, 2] : Fin 2 → Fin S1x3x3.rank)
  bcast_S1x3x3_S4096x3x3_0_1_2 : S1x3x3.BroadcastsInDim S4096x3x3 (![0, 1, 2] : Fin 3 → Fin S4096x3x3.rank)
  shapeCasts_S4096x3x3_S12288x3 : S4096x3x3.ShapeCasts S12288x3
  slices_S12288x3_S12288x2_0_1 : S12288x3.Slices ![0, 1] S12288x2
  concatenates_S12288x18_S12288x2_S12288x20_d1 : Shape.Concatenates [S12288x18, S12288x2] S12288x20 1
  transposes_S12288x20_S20x12288_1_0 : S12288x20.Transposes [1, 0] S20x12288
  shapeCasts_S4096x4096x3_S4096x12288 : S4096x4096x3.ShapeCasts S4096x12288
  shapeCasts_S256_S1x256 : S256.ShapeCasts S1x256
  shapeCasts_S2_S1x2 : S2.ShapeCasts S1x2
  h_S256x3072 : 0 < S256x3072.numel
  shapeCasts_S256x3072_S256x3072 : S256x3072.ShapeCasts S256x3072
  bitsLt_bf16_f32 : FTy.bits .bf16 < FTy.bits .f32
  h_S20x3072 : 0 < S20x3072.numel
  shapeCasts_S20x3072_S20x3072 : S20x3072.ShapeCasts S20x3072
  slices_S256x20_o0_0_S256x6 : S256x20.Slices ![0, 0] S256x6
  slices_S256x20_o0_6_S256x6 : S256x20.Slices ![0, 6] S256x6
  slices_S256x20_o0_12_S256x6 : S256x20.Slices ![0, 12] S256x6
  slices_S256x20_o0_18_S256x1 : S256x20.Slices ![0, 18] S256x1
  slices_S256x20_o0_19_S256x1 : S256x20.Slices ![0, 19] S256x1
  broadcasts_S256x1_S256x6 : S256x1.Broadcasts S256x6
  concatenates_S256x6_S256x6_S256x6_S256x18_d1 : Shape.Concatenates [S256x6, S256x6, S256x6] S256x18 1
  inb_S256x18_S256x18_0_0 : ∀ a, (![0, 0] : Fin 2 → Nat) a + S256x18.size a ≤ S256x18.size a
  h_S256x18 : 0 < S256x18.numel
  inb_S18x256_S18x256_0_0 : ∀ a, (![0, 0] : Fin 2 → Nat) a + S18x256.size a ≤ S18x256.size a
  h_S18x256 : 0 < S18x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  dot_S12288x36_S36x6_S12288x6_1_0_0_1_n_n_wf : DotDims.WF S12288x36 S36x6 S12288x6 [1] [0] [0] [1] [] []
  dot_S256x3072_S20x3072_S256x20_1_1_0_0_n_n_wf : DotDims.WF S256x3072 S20x3072 S256x20 [1] [1] [0] [0] [] []
  dot_S256x18_S18x256_S256x256_1_0_0_1_n_n_wf : DotDims.WF S256x18 S18x256 S256x256 [1] [0] [0] [1] [] []
  dot_S256x256_S256x256_S256x256_1_0_0_1_n_n_wf : DotDims.WF S256x256 S256x256 S256x256 [1] [0] [0] [1] [] []
  dot_S256x256_S256x2_S256x2_1_0_0_1_n_n_wf : DotDims.WF S256x256 S256x2 S256x2 [1] [0] [0] [1] [] []
  hrank0 : 0 < grid0.rank
  k0_mult1_dvd : 128 ∣ k0_mult1.toNat
  k0_off1_inb : ∀ (r : Fin 4), ∀ a, (k0_off1 (BitVec.ofNat 32 r.val)) a + S256x3072.size a ≤ S256x12288.size a
  k0_off2_inb : ∀ (r : Fin 4), ∀ a, (k0_off2 (BitVec.ofNat 32 r.val)) a + S20x3072.size a ≤ S20x12288.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x12288.size a ≤ S4096x12288.size a
  hwx0_0 : ∀ i : grid0.Coords, EltTy.bits .f32 = 32 ∨ (Rect.block (s := S4096x12288) S256x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x12288.size a ≤ S20x12288.size a
  hwx0_1 : ∀ i : grid0.Coords, EltTy.bits .f32 = 32 ∨ (Rect.block (s := S20x12288) S20x12288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x256.size a ≤ S18x256.size a
  hwx0_2 : ∀ i : grid0.Coords, EltTy.bits .f32 = 32 ∨ (Rect.block (s := S18x256) S18x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2.size a ≤ S256x2.size a
  hwx0_8 : ∀ i : grid0.Coords, EltTy.bits .f32 = 32 ∨ (Rect.block (s := S256x2) S256x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x18.size a ≤ S4096x18.size a
  hwx0_10 : ∀ i : grid0.Coords, EltTy.bits .f32 = 32 ∨ (Rect.block (s := S4096x18) S256x18.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2.size a ≤ S4096x2.size a
  hwx0_11 : ∀ i : grid0.Coords, EltTy.bits .f32 = 32 ∨ (Rect.block (s := S4096x2) S256x2.size (cc0_transform_11 i) (hinb0_11 i)).WholeWords (EltTy.packing .f32)

variable [Facts₀]

def dot_S12288x36_S36x6_S12288x6_1_0_0_1_n_n : DotDims S12288x36 S36x6 S12288x6 where
  lhsContracting := [1]
  rhsContracting := [0]
  lhsNonContracting := [0]
  rhsNonContracting := [1]
  lhsBatch := []
  rhsBatch := []
  wf := dot_S12288x36_S36x6_S12288x6_1_0_0_1_n_n_wf
def dot_S256x3072_S20x3072_S256x20_1_1_0_0_n_n : DotDims S256x3072 S20x3072 S256x20 where
  lhsContracting := [1]
  rhsContracting := [1]
  lhsNonContracting := [0]
  rhsNonContracting := [0]
  lhsBatch := []
  rhsBatch := []
  wf := dot_S256x3072_S20x3072_S256x20_1_1_0_0_n_n_wf
def dot_S256x18_S18x256_S256x256_1_0_0_1_n_n : DotDims S256x18 S18x256 S256x256 where
  lhsContracting := [1]
  rhsContracting := [0]
  lhsNonContracting := [0]
  rhsNonContracting := [1]
  lhsBatch := []
  rhsBatch := []
  wf := dot_S256x18_S18x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

abbrev win0_0 : Pipeline.Window sig grid0 :=
  Pipeline.Window.ofSpec (Memref.whole main_v24) S256x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S20x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S18x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29_0) S256x18.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v29_1) S256x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x3x36 : Shape := ⟨3, ![4096, 3, 36]⟩
abbrev S4096x4096x3 : Shape := ⟨3, ![4096, 4096, 3]⟩
abbrev S36x6 : Shape := ⟨2, ![36, 6]⟩
abbrev S6 : Shape := ⟨1, ![6]⟩
abbrev S18x256 : Shape := ⟨2, ![18, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S4096x18 : Shape := ⟨2, ![4096, 18]⟩
abbrev S4096x4096x1 : Shape := ⟨3, ![4096, 4096, 1]⟩
abbrev S4096x4096 : Shape := ⟨2, ![4096, 4096]⟩
abbrev S4096x1x36 : Shape := ⟨3, ![4096, 1, 36]⟩
abbrev S4096x36 : Shape := ⟨2, ![4096, 36]⟩
abbrev S4096x6 : Shape := ⟨2, ![4096, 6]⟩
abbrev S1x6 : Shape := ⟨2, ![1, 6]⟩
abbrev S4096x12 : Shape := ⟨2, ![4096, 12]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩
abbrev S4096x2 : Shape := ⟨2, ![4096, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S4096x3x36, .f32⟩
  | .hbm, ⟨1, _⟩ => ⟨S4096x4096x3, .f32⟩
  | .hbm, ⟨2, _⟩ => ⟨S36x6, .f32⟩
  | .hbm, ⟨3, _⟩ => ⟨S6, .f32⟩
  | .hbm, ⟨4, _⟩ => ⟨S18x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S_, .f32⟩
  | .hbm, ⟨13, _⟩ => ⟨S4096x18, .f32⟩
  | .hbm, ⟨14, _⟩ => ⟨S4096x4096x1, .f32⟩
  | .hbm, ⟨15, _⟩ => ⟨S4096x4096, .f32⟩
  | .hbm, ⟨16, _⟩ => ⟨S4096x1x36, .f32⟩
  | .hbm, ⟨17, _⟩ => ⟨S4096x36, .f32⟩
  | .hbm, ⟨18, _⟩ => ⟨S4096x6, .f32⟩
  | .hbm, ⟨19, _⟩ => ⟨S1x6, .f32⟩
  | .hbm, ⟨20, _⟩ => ⟨S4096x6, .f32⟩
  | .hbm, ⟨21, _⟩ => ⟨S4096x6, .f32⟩
  | .hbm, ⟨22, _⟩ => ⟨S4096x6, .f32⟩
  | .hbm, ⟨23, _⟩ => ⟨S4096x12, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x12, .f32⟩
  | .hbm, ⟨28, _⟩ => ⟨S4096x12, .f32⟩
  | .hbm, ⟨29, _⟩ => ⟨S4096x18, .f32⟩
  | .hbm, ⟨30, _⟩ => ⟨S4096x4096x1, .f32⟩
  | .hbm, ⟨31, _⟩ => ⟨S4096x4096, .f32⟩
  | .hbm, ⟨32, _⟩ => ⟨S4096x1x36, .f32⟩
  | .hbm, ⟨33, _⟩ => ⟨S4096x36, .f32⟩
  | .hbm, ⟨34, _⟩ => ⟨S4096x6, .f32⟩
  | .hbm, ⟨35, _⟩ => ⟨S1x6, .f32⟩
  | .hbm, ⟨36, _⟩ => ⟨S4096x6, .f32⟩
  | .hbm, ⟨37, _⟩ => ⟨S4096x6, .f32⟩
  | .hbm, ⟨38, _⟩ => ⟨S4096x6, .f32⟩
  | .hbm, ⟨39, _⟩ => ⟨S4096x12, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x12, .f32⟩
  | .hbm, ⟨44, _⟩ => ⟨S4096x12, .f32⟩
  | .hbm, ⟨45, _⟩ => ⟨S4096x18, .f32⟩
  | .hbm, ⟨46, _⟩ => ⟨S4096x4096x1, .f32⟩
  | .hbm, ⟨47, _⟩ => ⟨S4096x4096, .f32⟩
  | .hbm, ⟨48, _⟩ => ⟨S4096x1x36, .f32⟩
  | .hbm, ⟨49, _⟩ => ⟨S4096x36, .f32⟩
  | .hbm, ⟨50, _⟩ => ⟨S4096x6, .f32⟩
  | .hbm, ⟨51, _⟩ => ⟨S1x6, .f32⟩
  | .hbm, ⟨52, _⟩ => ⟨S4096x6, .f32⟩
  | .hbm, ⟨53, _⟩ => ⟨S4096x6, .f32⟩
  | .hbm, ⟨54, _⟩ => ⟨S4096x6, .f32⟩
  | .hbm, ⟨55, _⟩ => ⟨S4096x12, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x12, .f32⟩
  | .hbm, ⟨60, _⟩ => ⟨S4096x12, .f32⟩
  | .hbm, ⟨61, _⟩ => ⟨S4096x18, .f32⟩
  | .hbm, ⟨62, _⟩ => ⟨S4096x256, .f32⟩
  | .hbm, ⟨63, _⟩ => ⟨S1x256, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S1x256, .f32⟩
  | .hbm, ⟨71, _⟩ => ⟨S4096x256, .f32⟩
  | .hbm, ⟨72, _⟩ => ⟨S4096x256, .f32⟩
  | .hbm, ⟨73, _⟩ => ⟨S_, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S1x256, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S4096x256, .f32⟩
  | .hbm, ⟨82, _⟩ => ⟨S4096x256, .f32⟩
  | .hbm, ⟨83, _⟩ => ⟨S4096x2, .f32⟩
  | .hbm, ⟨84, _⟩ => ⟨S1x2, .f32⟩
  | .hbm, ⟨85, _⟩ => ⟨S4096x2, .f32⟩
  | .hbm, ⟨86, _⟩ => ⟨S4096x2, .f32⟩
  | _, _ => ⟨S4096x3x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call1_cst : Ref sig .tc := ⟨.hbm, 73, rfl⟩
abbrev main_call1_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call2_cst : Ref sig .tc := ⟨.hbm, 80, rfl⟩
abbrev main_call2_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  bcast_S_S4096x18 : S_.BroadcastsInDim S4096x18 (![] : Fin 0 → Fin S4096x18.rank)
  slices_S4096x4096x3_S4096x4096x1_0_0_0 : S4096x4096x3.Slices ![0, 0, 0] S4096x4096x1
  shapeCasts_S4096x4096x1_S4096x4096 : S4096x4096x1.ShapeCasts S4096x4096
  slices_S4096x3x36_S4096x1x36_0_0_0 : S4096x3x36.Slices ![0, 0, 0] S4096x1x36
  shapeCasts_S4096x1x36_S4096x36 : S4096x1x36.ShapeCasts S4096x36
  bcast_S6_S1x6_1 : S6.BroadcastsInDim S1x6 (![1] : Fin 1 → Fin S1x6.rank)
  bcast_S1x6_S4096x6_0_1 : S1x6.BroadcastsInDim S4096x6 (![0, 1] : Fin 2 → Fin S4096x6.rank)
  slices_S4096x18_S4096x12_0_0 : S4096x18.Slices ![0, 0] S4096x12
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x12_0_1 : S4096x1.BroadcastsInDim S4096x12 (![0, 1] : Fin 2 → Fin S4096x12.rank)
  concatenates_S4096x6_S4096x12_S4096x18_d1 : Shape.Concatenates [S4096x6, S4096x12] S4096x18 1
  slices_S4096x4096x3_S4096x4096x1_0_0_1 : S4096x4096x3.Slices ![0, 0, 1] S4096x4096x1
  slices_S4096x3x36_S4096x1x36_0_1_0 : S4096x3x36.Slices ![0, 1, 0] S4096x1x36
  slices_S4096x4096x3_S4096x4096x1_0_0_2 : S4096x4096x3.Slices ![0, 0, 2] S4096x4096x1
  slices_S4096x3x36_S4096x1x36_0_2_0 : S4096x3x36.Slices ![0, 2, 0] S4096x1x36
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S4096x36_S36x6_S4096x6_1_0_0_1_n_n_wf : DotDims.WF S4096x36 S36x6 S4096x6 [1] [0] [0] [1] [] []
  dot_S4096x4096_S4096x6_S4096x6_1_0_0_1_n_n_wf : DotDims.WF S4096x4096 S4096x6 S4096x6 [1] [0] [0] [1] [] []
  dot_S4096x18_S18x256_S4096x256_1_0_0_1_n_n_wf : DotDims.WF S4096x18 S18x256 S4096x256 [1] [0] [0] [1] [] []
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []

variable [Facts₀]

def dot_S4096x36_S36x6_S4096x6_1_0_0_1_n_n : DotDims S4096x36 S36x6 S4096x6 where
  lhsContracting := [1]
  rhsContracting := [0]
  lhsNonContracting := [0]
  rhsNonContracting := [1]
  lhsBatch := []
  rhsBatch := []
  wf := dot_S4096x36_S36x6_S4096x6_1_0_0_1_n_n_wf
def dot_S4096x4096_S4096x6_S4096x6_1_0_0_1_n_n : DotDims S4096x4096 S4096x6 S4096x6 where
  lhsContracting := [1]
  rhsContracting := [0]
  lhsNonContracting := [0]
  rhsNonContracting := [1]
  lhsBatch := []
  rhsBatch := []
  wf := dot_S4096x4096_S4096x6_S4096x6_1_0_0_1_n_n_wf
def dot_S4096x18_S18x256_S4096x256_1_0_0_1_n_n : DotDims S4096x18 S18x256 S4096x256 where
  lhsContracting := [1]
  rhsContracting := [0]
  lhsNonContracting := [0]
  rhsNonContracting := [1]
  lhsBatch := []
  rhsBatch := []
  wf := dot_S4096x18_S18x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

class Facts : Prop extends Facts₀ where

variable [Facts]
-- ==== Proof.KernelOut.lean ====
/-
  What one run of the body leaves in each result's block, as the body's arithmetic (the generated payloads) of the
  blocks it loaded. The body reads its block of the flattened adjacency and the selector in four chunks of 3072
  columns (loads through the rectangles at column offsets 0, 3072, 6144, 9216), reads the weight and bias buffers
  whole, and stores each result block once, whole: so the block left is the stored payload, the first three chunks
  feeding the accumulator and the fourth the final sum.
-/
import proofs.«111064_j25305947308075_2_alg».proof.Proof.Gen.KernelIdeal.Frame
import Idealize.ShloMosaic.Lib.Pipeline.Value

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem hz2 : (![0, 0] : Fin 2 → Nat) = fun _ => 0 := funext fun a => by fin_cases a <;> rfl

/-- Columns `o … o + 3071` of a block of the flattened adjacency. -/
abbrev chunkA (x0 : Vec F S256x12288 .f32) (o : ℕ) (h : ∀ a, (![0, o] : Fin 2 → ℕ) a + S256x3072.size a ≤ S256x12288.size a) :
    Vec F S256x3072 .f32 := View.ld x0 (Rect.unit ![0, o] S256x3072.size h)

/-- Columns `o … o + 3071` of the selector. -/
abbrev chunkM (x1 : Vec F S20x12288 .f32) (o : ℕ) (h : ∀ a, (![0, o] : Fin 2 → ℕ) a + S20x3072.size a ≤ S20x12288.size a) :
    Vec F S20x3072 .f32 := View.ld x1 (Rect.unit ![0, o] S20x3072.size h)

/-- The accumulator after the first three chunks. -/
abbrev acc3 (x0 : Vec F S256x12288 .f32) (x1 : Vec F S20x12288 .f32) : FVec F S256x20 .f32 :=
  k0_pay2 (chunkA x0 0 (by decide)) (chunkM x1 0 (by decide)) (chunkA x0 3072 (by decide)) (chunkM x1 3072 (by decide))
    (chunkA x0 6144 (by decide)) (chunkM x1 6144 (by decide))

/-- The first result's block after the body: the aggregation payload of the accumulator and the fourth chunk. -/
theorem out10_eq (c : Dev nD) (i : grid0.Coords) (arg1 : Memref sig .tc .vmem S256x12288 .f32) (harg1 : arg1.IsWhole) (arg2 : Memref sig .tc .vmem S20x12288 .f32) (harg2 : arg2.IsWhole) (arg3 : Memref sig .tc .vmem S18x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x2 .f32) (harg9 : arg9.IsWhole) (arg10 : Memref sig .tc .vmem S1x2 .f32) (harg10 : arg10.IsWhole) (arg11 : Memref sig .tc .vmem S256x18 .f32) (harg11 : arg11.IsWhole) (arg12 : Memref sig .tc .vmem S256x2 .f32) (harg12 : arg12.IsWhole)
    (x0 : Vec F S256x12288 .f32) (x1 : Vec F S20x12288 .f32) (x2 : Vec F S18x256 .f32) (x3 : Vec F S1x256 .f32) (x4 : Vec F S256x256 .f32) (x5 : Vec F S1x256 .f32) (x6 : Vec F S256x256 .f32) (x7 : Vec F S1x256 .f32) (x8 : Vec F S256x2 .f32) (x9 : Vec F S1x2 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = k0_pay3 (acc3 x0 x1) (chunkA x0 9216 (by decide)) (chunkM x1 9216 (by decide)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  rw [View.canon_unit_zero hz2]
  simp only [View.readAt_eq_ld, harg1.read_unread, harg2.read_unread]

/-- The second result's block after the body: the perceptron payloads of the same, of the weights and of the bias rows. -/
theorem out11_eq (c : Dev nD) (i : grid0.Coords) (arg1 : Memref sig .tc .vmem S256x12288 .f32) (harg1 : arg1.IsWhole) (arg2 : Memref sig .tc .vmem S20x12288 .f32) (harg2 : arg2.IsWhole) (arg3 : Memref sig .tc .vmem S18x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x2 .f32) (harg9 : arg9.IsWhole) (arg10 : Memref sig .tc .vmem S1x2 .f32) (harg10 : arg10.IsWhole) (arg11 : Memref sig .tc .vmem S256x18 .f32) (harg11 : arg11.IsWhole) (arg12 : Memref sig .tc .vmem S256x2 .f32) (harg12 : arg12.IsWhole)
    (x0 : Vec F S256x12288 .f32) (x1 : Vec F S20x12288 .f32) (x2 : Vec F S18x256 .f32) (x3 : Vec F S1x256 .f32) (x4 : Vec F S256x256 .f32) (x5 : Vec F S1x256 .f32) (x6 : Vec F S256x256 .f32) (x7 : Vec F S1x256 .f32) (x8 : Vec F S256x2 .f32) (x9 : Vec F S1x2 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = k0_pay1 (k0_pay4 (acc3 x0 x1) (chunkA x0 9216 (by decide)) (chunkM x1 9216 (by decide)) x2 x3 x4 x5) x6 x7 x8 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S18x256) hz2, View.ld_unit_zero (S := S1x256) hz2, View.ld_unit_zero (S := S256x256) hz2,
    View.ld_unit_zero (S := S256x2) hz2, View.ld_unit_zero (S := S1x2) hz2]

end Cert.KernelIdeal.Out

end
-- ==== Proof.Spec.lean ====
/-
  The result of both programs, written once as a function of the twelve argument arrays read as extended
  reals. With `a` the three stacked adjacency matrices, `feat j t` the six visual features of agent `j` at
  step `t` (one affine layer of its 36 observations), `msg t i = ∑ j, a i j t · feat j t` and
  `rowsum t i = ∑ j, a i j t`, row `i` of the first result is the 18 numbers
      msg 2 i  |  msg 1 i · rowsum 2 i  |  (msg 0 i · rowsum 1 i) · rowsum 2 i
  and row `i` of the second is a four-layer perceptron (three hidden layers with `max · 0`) of that row.
  Also here: the entries of the 20 × 12288 selector matrix against which one contraction of the flattened
  adjacency (position `k = 3 j + t`) yields all of `msg 0, msg 1, msg 2, rowsum 1, rowsum 2` at once.
-/
import Idealize.ShloMosaic.PureOps.Ideal
import Idealize.ShloMosaic.Lib.ValueIdx

noncomputable section

namespace Cert.Spec

open Idealize.ShloMosaic Idealize.ShloMosaic.ValueIdx

/-- An array of extended reals over a shape. -/
abbrev Arr (s : Shape) : Type := s.Idx → EReal

/-- The float zero, as the word both programs print. -/
abbrev z0 : EReal := Ideal.ofBits .f32 0x00000000#32

/-- Feature `v` of agent `j` at step `t`: the affine layer of its 36 observations. -/
def feat (vis : Arr ⟨3, ![4096, 3, 36]⟩) (Wv : Arr ⟨2, ![36, 6]⟩) (bv : Arr ⟨1, ![6]⟩)
    (j : Fin 4096) (t : Fin 3) (v : Fin 6) : EReal :=
  (∑ f : Fin 36, vis (ix3 j t f) * Wv (ix2 f v)) + bv (ix1 v)

/-- The message agent `i` receives at step `t`: its adjacency row against the agents' features. -/
def msg (a : Arr ⟨3, ![4096, 4096, 3]⟩) (vis : Arr ⟨3, ![4096, 3, 36]⟩) (Wv : Arr ⟨2, ![36, 6]⟩) (bv : Arr ⟨1, ![6]⟩)
    (t : Fin 3) (i : Fin 4096) (v : Fin 6) : EReal :=
  ∑ j : Fin 4096, a (ix3 i j t) * feat vis Wv bv j t v

/-- The sum of agent `i`'s adjacency row at step `t`. -/
def rowsum (a : Arr ⟨3, ![4096, 4096, 3]⟩) (t : Fin 3) (i : Fin 4096) : EReal :=
  ∑ j : Fin 4096, a (ix3 i j t)

/-- Row `i` of the aggregated features: the newest message, the one before scaled once, the oldest scaled twice. -/
def aggRow (a : Arr ⟨3, ![4096, 4096, 3]⟩) (vis : Arr ⟨3, ![4096, 3, 36]⟩) (Wv : Arr ⟨2, ![36, 6]⟩) (bv : Arr ⟨1, ![6]⟩)
    (i : Fin 4096) (c : Fin 18) : EReal :=
  if h : c.val < 6 then msg a vis Wv bv 2 i ⟨c.val, h⟩
  else if h' : c.val < 12 then msg a vis Wv bv 1 i ⟨c.val - 6, by omega⟩ * rowsum a 2 i
  else (msg a vis Wv bv 0 i ⟨c.val - 12, by omega⟩ * rowsum a 1 i) * rowsum a 2 i

/-- One affine layer applied to a row. -/
def dense {K N : ℕ} (x : Fin K → EReal) (W : Arr ⟨2, ![K, N]⟩) (b : Arr ⟨1, ![N]⟩) (n : Fin N) : EReal :=
  (∑ k : Fin K, x k * W (ix2 k n)) + b (ix1 n)

/-- The rectifier. -/
def relu (x : EReal) : EReal := max x z0

/-- The perceptron applied to a row of 18 numbers. -/
def mlpRow (x : Fin 18 → EReal) (W0 : Arr ⟨2, ![18, 256]⟩) (b0 : Arr ⟨1, ![256]⟩) (W1 : Arr ⟨2, ![256, 256]⟩) (b1 : Arr ⟨1, ![256]⟩)
    (W2 : Arr ⟨2, ![256, 256]⟩) (b2 : Arr ⟨1, ![256]⟩) (Wp : Arr ⟨2, ![256, 2]⟩) (bp : Arr ⟨1, ![2]⟩) : Fin 2 → EReal :=
  dense (fun k2 => relu (dense (fun k1 => relu (dense (fun k0 => relu (dense x W0 b0 k0)) W1 b1 k1)) W2 b2 k2)) Wp bp

/-- The first result: the aggregated features, 4096 rows of 18. -/
def G10 (a : Arr ⟨3, ![4096, 4096, 3]⟩) (vis : Arr ⟨3, ![4096, 3, 36]⟩) (Wv : Arr ⟨2, ![36, 6]⟩) (bv : Arr ⟨1, ![6]⟩) :
    Arr ⟨2, ![4096, 18]⟩ :=
  fun idx => aggRow a vis Wv bv (idx 0) (idx 1)

/-- The second result: the perceptron of each aggregated row, 4096 rows of 2. -/
def G11 (a : Arr ⟨3, ![4096, 4096, 3]⟩) (vis : Arr ⟨3, ![4096, 3, 36]⟩) (Wv : Arr ⟨2, ![36, 6]⟩) (bv : Arr ⟨1, ![6]⟩)
    (W0 : Arr ⟨2, ![18, 256]⟩) (b0 : Arr ⟨1, ![256]⟩) (W1 : Arr ⟨2, ![256, 256]⟩) (b1 : Arr ⟨1, ![256]⟩)
    (W2 : Arr ⟨2, ![256, 256]⟩) (b2 : Arr ⟨1, ![256]⟩) (Wp : Arr ⟨2, ![256, 2]⟩) (bp : Arr ⟨1, ![2]⟩) :
    Arr ⟨2, ![4096, 2]⟩ :=
  fun idx => mlpRow (aggRow a vis Wv bv (idx 0)) W0 b0 W1 b1 W2 b2 Wp bp (idx 1)

/-! ## The selector matrix -/

/-- The 3 × 3 identity, as 0 and 1. -/
def eye (t t' : ℕ) : EReal := if t = t' then 1 else 0

/-- Entry `(c, k)` of the selector: for `c = 6 t' + v < 18` the feature `v` of agent `k / 3` at step `k % 3` where that
    step is `t'` and zero elsewhere; rows 18 and 19 pick the positions of steps 1 and 2. -/
def sel (vis : Arr ⟨3, ![4096, 3, 36]⟩) (Wv : Arr ⟨2, ![36, 6]⟩) (bv : Arr ⟨1, ![6]⟩) (c : Fin 20) (k : Fin 12288) : EReal :=
  if h : c.val < 18 then
    feat vis Wv bv ⟨k.val / 3, by omega⟩ ⟨k.val % 3, by omega⟩ ⟨c.val % 6, by omega⟩ * eye (k.val % 3) (c.val / 6)
  else eye (k.val % 3) (c.val - 17)

/-- The flattened adjacency: row `i`, position `k = 3 j + t`. -/
def aflat (a : Arr ⟨3, ![4096, 4096, 3]⟩) (i : Fin 4096) (k : Fin 12288) : EReal :=
  a (ix3 i ⟨k.val / 3, by omega⟩ ⟨k.val % 3, by omega⟩)

end Cert.Spec

end
-- ==== Proof.LibSumSplit.lean ====
/-
  General lemmas, independent of any program: finite sums over positions written in mixed radix, and division of
  extended reals by a positive real.

  * a double sum over a < A, b < B of a function of a·B + b is the single sum over the positions k < A·B;
  * the sum over the positions k < Q·S·R·C, regrouped by the four digits (q, s, r, l) of k = ((S q + s) R + r) C + l,
    with the last digit l summed second and the digit s ranging over a range;
  * division by a positive real distributes over the sum of ANY two extended reals (it is the product with a positive
    real, which is monotone and keeps each infinity), although distributivity fails on the extended reals in general.
-/
import Idealize.ShloMosaic.PureOps.Ideal.Laws

noncomputable section

namespace Cert.LibSumSplit

open Idealize.ShloMosaic

/-- A double sum over a < A, b < B of a function of a·B + b is the single sum over k < A·B. -/
theorem sum_fin_mul {M : Type*} [AddCommMonoid M] (A B : ℕ) (F : ℕ → M) :
    ∑ a : Fin A, ∑ b : Fin B, F (a.val * B + b.val) = ∑ k : Fin (A * B), F k.val := by
  rw [← Equiv.sum_comp finProdFinEquiv (fun k : Fin (A * B) => F k.val), Fintype.sum_prod_type]
  refine Finset.sum_congr rfl fun a _ => Finset.sum_congr rfl fun b _ => ?_
  show F _ = F _
  congr 1
  show a.val * B + b.val = b.val + B * a.val
  rw [Nat.mul_comm, Nat.add_comm]

/-- The sum over all positions below Q·S·R·C, regrouped by the four digits (q, s, r, l) of a position
    k = ((S q + s) R + r) C + l, the digit l summed second. State it over variable extents and instantiate the numerals
    once: index types of literal size in the millions are slow to compare. -/
theorem total_split {M : Type*} [AddCommMonoid M] (Q S R C : ℕ) (f : ℕ → M) :
    ∑ k : Fin (Q * S * R * C), f k.val
      = ∑ q : Fin Q, ∑ l : Fin C, ∑ s ∈ Finset.range S, ∑ r : Fin R, f (((S * q.val + s) * R + r.val) * C + l.val) := by
  have e1 : ∑ k : Fin (Q * S * R * C), f k.val = ∑ a : Fin (Q * S * R), ∑ l : Fin C, f (a.val * C + l.val) :=
    (sum_fin_mul (Q * S * R) C f).symm
  have e2 : ∑ a : Fin (Q * S * R), ∑ l : Fin C, f (a.val * C + l.val)
      = ∑ n : Fin (Q * S), ∑ r : Fin R, ∑ l : Fin C, f ((n.val * R + r.val) * C + l.val) :=
    (sum_fin_mul (Q * S) R (fun a => ∑ l : Fin C, f (a * C + l.val))).symm
  have e3 : ∑ n : Fin (Q * S), ∑ r : Fin R, ∑ l : Fin C, f ((n.val * R + r.val) * C + l.val)
      = ∑ q : Fin Q, ∑ s : Fin S, ∑ r : Fin R, ∑ l : Fin C, f (((q.val * S + s.val) * R + r.val) * C + l.val) :=
    (sum_fin_mul Q S (fun n => ∑ r : Fin R, ∑ l : Fin C, f ((n * R + r.val) * C + l.val))).symm
  rw [e1, e2, e3]
  refine Finset.sum_congr rfl fun q _ => ?_
  have e4 : ∀ l : Fin C, ∑ s ∈ Finset.range S, ∑ r : Fin R, f (((S * q.val + s) * R + r.val) * C + l.val)
      = ∑ s : Fin S, ∑ r : Fin R, f (((q.val * S + s.val) * R + r.val) * C + l.val) := fun l => by
    rw [Finset.sum_range (fun s => ∑ r : Fin R, f (((S * q.val + s) * R + r.val) * C + l.val)), Nat.mul_comm S q.val]
  have e5 : ∑ l : Fin C, ∑ s ∈ Finset.range S, ∑ r : Fin R, f (((S * q.val + s) * R + r.val) * C + l.val)
      = ∑ l : Fin C, ∑ s : Fin S, ∑ r : Fin R, f (((q.val * S + s.val) * R + r.val) * C + l.val) :=
    Finset.sum_congr rfl fun l _ => e4 l
  calc ∑ s : Fin S, ∑ r : Fin R, ∑ l : Fin C, f (((q.val * S + s.val) * R + r.val) * C + l.val)
      = ∑ s : Fin S, ∑ l : Fin C, ∑ r : Fin R, f (((q.val * S + s.val) * R + r.val) * C + l.val) :=
        Finset.sum_congr rfl fun s _ => Finset.sum_comm
    _ = ∑ l : Fin C, ∑ s : Fin S, ∑ r : Fin R, f (((q.val * S + s.val) * R + r.val) * C + l.val) := Finset.sum_comm
    _ = _ := e5.symm

/-- Division by a positive real distributes over the sum of any two extended reals. -/
theorem div_pos_real_add {y : ℝ} (hy : 0 < y) (a b : EReal) :
    Ideal.div (a + b) (y : EReal) = Ideal.div a (y : EReal) + Ideal.div b (y : EReal) := by
  rw [Ideal.div_coe hy.ne', Ideal.div_coe hy.ne', Ideal.div_coe hy.ne']
  exact EReal.right_distrib_of_nonneg_of_ne_top (by exact_mod_cast (one_div_pos.mpr hy).le) (EReal.coe_ne_top _) a b

end Cert.LibSumSplit

end
-- ==== Proof.SelSum.lean ====
/-
  The one contraction that yields every message and row sum. A position `k < 12288` of the flattened adjacency is
  `k = 3 j + t` (neighbour `j`, step `t`), so a sum over the positions is a double sum over `j` and `t`; the selector
  row for (step `t'`, feature `v`) holds `feat j t v` where `t = t'` and zero elsewhere, so of the three steps only `t'`
  survives: `∑ k, aflat i k · sel (6 t' + v) k = ∑ j, a i j t' · feat j t' v = msg t' i v`. Rows 18 and 19 hold the
  indicator of steps 1 and 2, giving the row sums. Only `x · 0 = 0`, `x · 1 = x` and `x + 0 = x` are used, which hold
  for every extended real: no finiteness is needed.
-/
import proofs.«111064_j25305947308075_2_alg».proof.Proof.Spec
import proofs.«111064_j25305947308075_2_alg».proof.Proof.LibSumSplit

noncomputable section

namespace Cert.SelSum

open Idealize.ShloMosaic Idealize.ShloMosaic.ValueIdx Cert.Spec

/-- A position written with digits `a < A`, `b < B` lies below `A · B`. -/
theorem pos_lt {A B : ℕ} (a : Fin A) (b : Fin B) : a.val * B + b.val < A * B :=
  calc a.val * B + b.val < a.val * B + B := Nat.add_lt_add_left b.isLt _
    _ = (a.val + 1) * B := by rw [Nat.add_mul, Nat.one_mul]
    _ ≤ A * B := Nat.mul_le_mul_right _ a.isLt

/-- A sum over the positions below `A · B` is the double sum over their two digits. -/
theorem sum_digits {M : Type*} [AddCommMonoid M] (A B : ℕ) (f : Fin (A * B) → M) :
    ∑ k : Fin (A * B), f k = ∑ a : Fin A, ∑ b : Fin B, f ⟨a.val * B + b.val, pos_lt a b⟩ := by
  have h := Cert.LibSumSplit.sum_fin_mul A B (fun n => if h : n < A * B then f ⟨n, h⟩ else 0)
  have e : ∑ k : Fin (A * B), f k = ∑ k : Fin (A * B), (fun n => if h : n < A * B then f ⟨n, h⟩ else 0) k.val :=
    Finset.sum_congr rfl fun k _ => by simp only [dif_pos k.isLt]
  rw [e, ← h]
  exact Finset.sum_congr rfl fun a _ => Finset.sum_congr rfl fun b _ => by simp only [dif_pos (pos_lt a b)]

/-- Of three terms weighted by a row of the identity, one survives. -/
theorem sum_eye (g : Fin 3 → EReal) (t' : Fin 3) : ∑ t : Fin 3, g t * eye t.val t'.val = g t' := by
  fin_cases t' <;> simp [Fin.sum_univ_three, eye]

/-- Row `c` of the selector against row `i` of the flattened adjacency. -/
def res (a : Arr ⟨3, ![4096, 4096, 3]⟩) (vis : Arr ⟨3, ![4096, 3, 36]⟩) (Wv : Arr ⟨2, ![36, 6]⟩) (bv : Arr ⟨1, ![6]⟩)
    (i : Fin 4096) (c : Fin 20) : EReal :=
  ∑ k : Fin 12288, aflat a i k * sel vis Wv bv c k

variable (a : Arr ⟨3, ![4096, 4096, 3]⟩) (vis : Arr ⟨3, ![4096, 3, 36]⟩) (Wv : Arr ⟨2, ![36, 6]⟩) (bv : Arr ⟨1, ![6]⟩)

/-- The flattened adjacency at position `3 j + t` is the adjacency at `(j, t)`. -/
theorem aflat_pos (i : Fin 4096) (j : Fin 4096) (t : Fin 3) :
    aflat a i ⟨j.val * 3 + t.val, pos_lt j t⟩ = a (ix3 i j t) := by
  unfold aflat
  congr 1
  have hj : (j.val * 3 + t.val) / 3 = j.val := by have := t.isLt; omega
  have ht : (j.val * 3 + t.val) % 3 = t.val := by have := t.isLt; omega
  exact congrArg₂ (ix3 i) (Fin.ext hj) (Fin.ext ht)

/-- A feature row of the selector at position `3 j + t`. -/
theorem sel_feat_pos (t' : Fin 3) (v : Fin 6) (j : Fin 4096) (t : Fin 3) (h : t'.val * 6 + v.val < 20) :
    sel vis Wv bv ⟨t'.val * 6 + v.val, h⟩ ⟨j.val * 3 + t.val, pos_lt j t⟩ = feat vis Wv bv j t v * eye t.val t'.val := by
  have hc : t'.val * 6 + v.val < 18 := by have := t'.isLt; have := v.isLt; omega
  have hj : (j.val * 3 + t.val) / 3 = j.val := by have := t.isLt; omega
  have ht : (j.val * 3 + t.val) % 3 = t.val := by have := t.isLt; omega
  have hv : (t'.val * 6 + v.val) % 6 = v.val := by have := v.isLt; omega
  have ht' : (t'.val * 6 + v.val) / 6 = t'.val := by have := v.isLt; omega
  unfold sel
  rw [dif_pos hc]
  show feat vis Wv bv ⟨(j.val * 3 + t.val) / 3, _⟩ ⟨(j.val * 3 + t.val) % 3, _⟩ ⟨(t'.val * 6 + v.val) % 6, _⟩
      * eye ((j.val * 3 + t.val) % 3) ((t'.val * 6 + v.val) / 6) = _
  refine congrArg₂ (· * ·) ?_ ?_
  · exact congr (congr (congrArg (feat vis Wv bv) (Fin.ext hj)) (Fin.ext ht)) (Fin.ext hv)
  · rw [ht, ht']

/-- An indicator row of the selector at position `3 j + t`. -/
theorem sel_ind_pos (s : Fin 2) (j : Fin 4096) (t : Fin 3) (h : 18 + s.val < 20) :
    sel vis Wv bv ⟨18 + s.val, h⟩ ⟨j.val * 3 + t.val, pos_lt j t⟩ = eye t.val (s.val + 1) := by
  have ht : (j.val * 3 + t.val) % 3 = t.val := by have := t.isLt; omega
  unfold sel
  rw [dif_neg (by show ¬ (18 + s.val < 18); omega)]
  show eye ((j.val * 3 + t.val) % 3) (18 + s.val - 17) = _
  rw [ht, show 18 + s.val - 17 = s.val + 1 by omega]

/-- The feature rows of the selector contract the flattened adjacency to the messages. -/
theorem res_msg (i : Fin 4096) (t' : Fin 3) (v : Fin 6) (h : t'.val * 6 + v.val < 20) :
    res a vis Wv bv i ⟨t'.val * 6 + v.val, h⟩ = msg a vis Wv bv t' i v := by
  unfold res msg
  rw [sum_digits 4096 3 (fun k : Fin 12288 => aflat a i k * sel vis Wv bv ⟨t'.val * 6 + v.val, h⟩ k)]
  refine Finset.sum_congr rfl fun j _ => ?_
  rw [← sum_eye (fun t => a (ix3 i j t) * feat vis Wv bv j t v) t']
  refine Finset.sum_congr rfl fun t _ => ?_
  rw [aflat_pos, sel_feat_pos, mul_assoc]

/-- The indicator rows of the selector contract the flattened adjacency to the row sums of steps 1 and 2. -/
theorem res_rowsum (i : Fin 4096) (s : Fin 2) (h : 18 + s.val < 20) :
    res a vis Wv bv i ⟨18 + s.val, h⟩ = rowsum a ⟨s.val + 1, by omega⟩ i := by
  unfold res rowsum
  rw [sum_digits 4096 3 (fun k : Fin 12288 => aflat a i k * sel vis Wv bv ⟨18 + s.val, h⟩ k)]
  refine Finset.sum_congr rfl fun j _ => ?_
  rw [← sum_eye (fun t => a (ix3 i j t)) ⟨s.val + 1, by omega⟩]
  refine Finset.sum_congr rfl fun t _ => ?_
  rw [aflat_pos, sel_ind_pos]

/-- How a row of the 20 contracted numbers becomes a row of 18: columns 12–17 as they are, columns 6–11 scaled by
    column 19, columns 0–5 scaled by column 18 and then by column 19. -/
def combine (x : Fin 20 → EReal) (c : Fin 18) : EReal :=
  if h : c.val < 6 then x ⟨c.val + 12, by omega⟩
  else if h' : c.val < 12 then x ⟨c.val, by omega⟩ * x 19
  else (x ⟨c.val - 12, by omega⟩ * x 18) * x 19

/-- Combined, the contracted row is the aggregated row of the specification. -/
theorem combine_res (i : Fin 4096) (c : Fin 18) :
    combine (res a vis Wv bv i) c = aggRow a vis Wv bv i c := by
  have e18 : res a vis Wv bv i 18 = rowsum a 1 i := res_rowsum a vis Wv bv i 0 (by decide)
  have e19 : res a vis Wv bv i 19 = rowsum a 2 i := res_rowsum a vis Wv bv i 1 (by decide)
  unfold combine aggRow
  by_cases h : c.val < 6
  · rw [dif_pos h, dif_pos h]
    have := res_msg a vis Wv bv i 2 ⟨c.val, h⟩ (by show 2 * 6 + c.val < 20; omega)
    rw [← this]
    exact congrArg (res a vis Wv bv i) (Fin.ext (by show c.val + 12 = 2 * 6 + c.val; omega))
  · rw [dif_neg h, dif_neg h]
    by_cases h' : c.val < 12
    · rw [dif_pos h', dif_pos h', e19]
      have := res_msg a vis Wv bv i 1 ⟨c.val - 6, by omega⟩ (by show 1 * 6 + (c.val - 6) < 20; omega)
      rw [← this]
      exact congrArg (· * rowsum a 2 i) (congrArg (res a vis Wv bv i) (Fin.ext (by show c.val = 1 * 6 + (c.val - 6); omega)))
    · rw [dif_neg h', dif_neg h', e18, e19]
      have := res_msg a vis Wv bv i 0 ⟨c.val - 12, by have := c.isLt; omega⟩ (by show 0 * 6 + (c.val - 12) < 20; have := c.isLt; omega)
      rw [← this]
      exact congrArg (fun z => (z * rowsum a 1 i) * rowsum a 2 i)
        (congrArg (res a vis Wv bv i) (Fin.ext (by show c.val - 12 = 0 * 6 + (c.val - 12); omega)))

end Cert.SelSum

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernelRow.lean ====
/-
  The kernel body's arithmetic at one entry of a block, at the ideal values. A block is 256 rows of the flattened
  adjacency (12288 positions each); the body contracts it against the 20 × 12288 selector in four chunks of 3072
  positions, added up in order, giving 20 numbers per row; the first result's block is those numbers combined into 18
  (slices, two column broadcasts, products, a three-piece concatenation); the second result's block is four affine layers
  (block products with the weights, a bias row broadcast down the rows, `max · 0` after the first three) of the 18.
  Every statement is over variables of the literal vector types, at an entry written with its two coordinates.
-/
import proofs.«111064_j25305947308075_2_alg».proof.Proof.Gen.KernelIdeal.Skeleton
import proofs.«111064_j25305947308075_2_alg».proof.Proof.Spec
import proofs.«111064_j25305947308075_2_alg».proof.Proof.SelSum
import proofs.«111064_j25305947308075_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## The block products as sums -/

/-- Row coordinate of the left operand's index in `dot_S256x3072_S20x3072_S256x20_1_1_0_0_n_n`: the output's row. -/
theorem chunk_apply_l (i : S256x20.Idx) (q : dot_S256x3072_S20x3072_S256x20_1_1_0_0_n_n.contr.Idx) : (dot_S256x3072_S20x3072_S256x20_1_1_0_0_n_n.lhsIdx i q 0).val = (i 0).val := by
  unfold DotDims.lhsIdx
  rw [dif_neg (show ¬(0 : Fin S256x3072.rank) ∈ dot_S256x3072_S20x3072_S256x20_1_1_0_0_n_n.lhsBatch by decide), dif_pos (show (0 : Fin S256x3072.rank) ∈ dot_S256x3072_S20x3072_S256x20_1_1_0_0_n_n.lhsNonContracting by decide)]
  rfl

/-- Free coordinate of the right operand's index in `dot_S256x3072_S20x3072_S256x20_1_1_0_0_n_n`: the output's column. -/
theorem chunk_apply_r (i : S256x20.Idx) (q : dot_S256x3072_S20x3072_S256x20_1_1_0_0_n_n.contr.Idx) : (dot_S256x3072_S20x3072_S256x20_1_1_0_0_n_n.rhsIdx i q 0).val = (i 1).val := by
  unfold DotDims.rhsIdx
  rw [dif_neg (show ¬(0 : Fin S20x3072.rank) ∈ dot_S256x3072_S20x3072_S256x20_1_1_0_0_n_n.rhsBatch by decide), dif_pos (show (0 : Fin S20x3072.rank) ∈ dot_S256x3072_S20x3072_S256x20_1_1_0_0_n_n.rhsNonContracting by decide)]
  rfl

/-- The block product `dot_S256x3072_S20x3072_S256x20_1_1_0_0_n_n` into a zero accumulator, read at entry `(r, c)`: the sum over the contracted axis. -/
theorem chunk_apply (x : FVec Ideal S256x3072 .bf16) (y : FVec Ideal S20x3072 .bf16) (r : Fin 256) (c : Fin 20) :
    matmul dot_S256x3072_S20x3072_S256x20_1_1_0_0_n_n none x y (constant (F := Ideal) S256x20 .f32 0x00000000#32) (ix2 r c)
      = ∑ k : Fin 3072, x (ix2 r k) * y (ix2 c k) := by
  simp only [matmul]
  rw [Ideal.matmul_constant_zero_apply, ← Equiv.sum_comp (contrEquiv1 dot_S256x3072_S20x3072_S256x20_1_1_0_0_n_n 3072 rfl rfl).symm]
  refine Finset.sum_congr rfl fun k _ => ?_
  have hk := contrEquiv1_symm_val dot_S256x3072_S20x3072_S256x20_1_1_0_0_n_n 3072 rfl rfl k
  have el : dot_S256x3072_S20x3072_S256x20_1_1_0_0_n_n.lhsIdx (ix2 r c) ((contrEquiv1 dot_S256x3072_S20x3072_S256x20_1_1_0_0_n_n 3072 rfl rfl).symm k) = ix2 r k := funext fun a => Fin.ext (by
    match a with
    | ⟨0, _⟩ => exact chunk_apply_l _ _
    | ⟨1, _⟩ => exact (dot_S256x3072_S20x3072_S256x20_1_1_0_0_n_n.lhsIdx_val_of_single rfl _ _).trans hk)
  have er : dot_S256x3072_S20x3072_S256x20_1_1_0_0_n_n.rhsIdx (ix2 r c) ((contrEquiv1 dot_S256x3072_S20x3072_S256x20_1_1_0_0_n_n 3072 rfl rfl).symm k) = ix2 c k := funext fun a => Fin.ext (by
    match a with
    | ⟨0, _⟩ => exact chunk_apply_r _ _
    | ⟨1, _⟩ => exact (dot_S256x3072_S20x3072_S256x20_1_1_0_0_n_n.rhsIdx_val_of_single rfl _ _).trans hk)
  rw [el, er]

/-- Row coordinate of the left operand's index in `dot_S256x18_S18x256_S256x256_1_0_0_1_n_n`: the output's row. -/
theorem dot0_apply_l (i : S256x256.Idx) (q : dot_S256x18_S18x256_S256x256_1_0_0_1_n_n.contr.Idx) : (dot_S256x18_S18x256_S256x256_1_0_0_1_n_n.lhsIdx i q 0).val = (i 0).val := by
  unfold DotDims.lhsIdx
  rw [dif_neg (show ¬(0 : Fin S256x18.rank) ∈ dot_S256x18_S18x256_S256x256_1_0_0_1_n_n.lhsBatch by decide), dif_pos (show (0 : Fin S256x18.rank) ∈ dot_S256x18_S18x256_S256x256_1_0_0_1_n_n.lhsNonContracting by decide)]
  rfl

/-- Free coordinate of the right operand's index in `dot_S256x18_S18x256_S256x256_1_0_0_1_n_n`: the output's column. -/
theorem dot0_apply_r (i : S256x256.Idx) (q : dot_S256x18_S18x256_S256x256_1_0_0_1_n_n.contr.Idx) : (dot_S256x18_S18x256_S256x256_1_0_0_1_n_n.rhsIdx i q 1).val = (i 1).val := by
  unfold DotDims.rhsIdx
  rw [dif_neg (show ¬(1 : Fin S18x256.rank) ∈ dot_S256x18_S18x256_S256x256_1_0_0_1_n_n.rhsBatch by decide), dif_pos (show (1 : Fin S18x256.rank) ∈ dot_S256x18_S18x256_S256x256_1_0_0_1_n_n.rhsNonContracting by decide)]
  rfl

/-- The block product `dot_S256x18_S18x256_S256x256_1_0_0_1_n_n` into a zero accumulator, read at entry `(r, c)`: the sum over the contracted axis. -/
theorem dot0_apply (x : FVec Ideal S256x18 .bf16) (y : FVec Ideal S18x256 .bf16) (r : Fin 256) (c : Fin 256) :
    matmul dot_S256x18_S18x256_S256x256_1_0_0_1_n_n none x y (constant (F := Ideal) S256x256 .f32 0x00000000#32) (ix2 r c)
      = ∑ k : Fin 18, x (ix2 r k) * y (ix2 k c) := by
  simp only [matmul]
  rw [Ideal.matmul_constant_zero_apply, ← Equiv.sum_comp (contrEquiv1 dot_S256x18_S18x256_S256x256_1_0_0_1_n_n 18 rfl rfl).symm]
  refine Finset.sum_congr rfl fun k _ => ?_
  have hk := contrEquiv1_symm_val dot_S256x18_S18x256_S256x256_1_0_0_1_n_n 18 rfl rfl k
  have el : dot_S256x18_S18x256_S256x256_1_0_0_1_n_n.lhsIdx (ix2 r c) ((contrEquiv1 dot_S256x18_S18x256_S256x256_1_0_0_1_n_n 18 rfl rfl).symm k) = ix2 r k := funext fun a => Fin.ext (by
    match a with
    | ⟨0, _⟩ => exact dot0_apply_l _ _
    | ⟨1, _⟩ => exact (dot_S256x18_S18x256_S256x256_1_0_0_1_n_n.lhsIdx_val_of_single rfl _ _).trans hk)
  have er : dot_S256x18_S18x256_S256x256_1_0_0_1_n_n.rhsIdx (ix2 r c) ((contrEquiv1 dot_S256x18_S18x256_S256x256_1_0_0_1_n_n 18 rfl rfl).symm k) = ix2 k c := funext fun a => Fin.ext (by
    match a with
    | ⟨1, _⟩ => exact dot0_apply_r _ _
    | ⟨0, _⟩ => exact (dot_S256x18_S18x256_S256x256_1_0_0_1_n_n.rhsIdx_val_of_single rfl _ _).trans hk)
  rw [el, er]

/-- Row coordinate of the left operand's index in `dot_S256x256_S256x256_S256x256_1_0_0_1_n_n`: the output's row. -/
theorem dot1_apply_l (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl

/-- Free coordinate of the right operand's index in `dot_S256x256_S256x256_S256x256_1_0_0_1_n_n`: the output's column. -/
theorem dot1_apply_r (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The block product `dot_S256x256_S256x256_S256x256_1_0_0_1_n_n` into a zero accumulator, read at entry `(r, c)`: the sum over the contracted axis. -/
theorem dot1_apply (x : FVec Ideal S256x256 .bf16) (y : FVec Ideal S256x256 .bf16) (r : Fin 256) (c : Fin 256) :
    matmul dot_S256x256_S256x256_S256x256_1_0_0_1_n_n none x y (constant (F := Ideal) S256x256 .f32 0x00000000#32) (ix2 r c)
      = ∑ k : Fin 256, x (ix2 r k) * y (ix2 k c) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r c) ((contrEquiv1 dot_S256x256_S256x256_S256x256_1_0_0_1_n_n 256 rfl rfl).symm k) = ix2 r k := funext fun a => Fin.ext (by
    match a with
    | ⟨0, _⟩ => exact dot1_apply_l _ _
    | ⟨1, _⟩ => exact (dot_S256x256_S256x256_S256x256_1_0_0_1_n_n.lhsIdx_val_of_single rfl _ _).trans hk)
  have er : dot_S256x256_S256x256_S256x256_1_0_0_1_n_n.rhsIdx (ix2 r c) ((contrEquiv1 dot_S256x256_S256x256_S256x256_1_0_0_1_n_n 256 rfl rfl).symm k) = ix2 k c := funext fun a => Fin.ext (by
    match a with
    | ⟨1, _⟩ => exact dot1_apply_r _ _
    | ⟨0, _⟩ => exact (dot_S256x256_S256x256_S256x256_1_0_0_1_n_n.rhsIdx_val_of_single rfl _ _).trans hk)
  rw [el, er]

/-- Row coordinate of the left operand's index in `dot_S256x256_S256x2_S256x2_1_0_0_1_n_n`: the output's row. -/
theorem dotp_apply_l (i : S256x2.Idx) (q : dot_S256x256_S256x2_S256x2_1_0_0_1_n_n.contr.Idx) : (dot_S256x256_S256x2_S256x2_1_0_0_1_n_n.lhsIdx i q 0).val = (i 0).val := by
  unfold DotDims.lhsIdx
  rw [dif_neg (show ¬(0 : Fin S256x256.rank) ∈ dot_S256x256_S256x2_S256x2_1_0_0_1_n_n.lhsBatch by decide), dif_pos (show (0 : Fin S256x256.rank) ∈ dot_S256x256_S256x2_S256x2_1_0_0_1_n_n.lhsNonContracting by decide)]
  rfl

/-- Free coordinate of the right operand's index in `dot_S256x256_S256x2_S256x2_1_0_0_1_n_n`: the output's column. -/
theorem dotp_apply_r (i : S256x2.Idx) (q : dot_S256x256_S256x2_S256x2_1_0_0_1_n_n.contr.Idx) : (dot_S256x256_S256x2_S256x2_1_0_0_1_n_n.rhsIdx i q 1).val = (i 1).val := by
  unfold DotDims.rhsIdx
  rw [dif_neg (show ¬(1 : Fin S256x2.rank) ∈ dot_S256x256_S256x2_S256x2_1_0_0_1_n_n.rhsBatch by decide), dif_pos (show (1 : Fin S256x2.rank) ∈ dot_S256x256_S256x2_S256x2_1_0_0_1_n_n.rhsNonContracting by decide)]
  rfl

/-- The block product `dot_S256x256_S256x2_S256x2_1_0_0_1_n_n` into a zero accumulator, read at entry `(r, c)`: the sum over the contracted axis. -/
theorem dotp_apply (x : FVec Ideal S256x256 .bf16) (y : FVec Ideal S256x2 .bf16) (r : Fin 256) (c : Fin 2) :
    matmul dot_S256x256_S256x2_S256x2_1_0_0_1_n_n none x y (constant (F := Ideal) S256x2 .f32 0x00000000#32) (ix2 r c)
      = ∑ k : Fin 256, x (ix2 r k) * y (ix2 k c) := by
  simp only [matmul]
  rw [Ideal.matmul_constant_zero_apply, ← Equiv.sum_comp (contrEquiv1 dot_S256x256_S256x2_S256x2_1_0_0_1_n_n 256 rfl rfl).symm]
  refine Finset.sum_congr rfl fun k _ => ?_
  have hk := contrEquiv1_symm_val dot_S256x256_S256x2_S256x2_1_0_0_1_n_n 256 rfl rfl k
  have el : dot_S256x256_S256x2_S256x2_1_0_0_1_n_n.lhsIdx (ix2 r c) ((contrEquiv1 dot_S256x256_S256x2_S256x2_1_0_0_1_n_n 256 rfl rfl).symm k) = ix2 r k := funext fun a => Fin.ext (by
    match a with
    | ⟨0, _⟩ => exact dotp_apply_l _ _
    | ⟨1, _⟩ => exact (dot_S256x256_S256x2_S256x2_1_0_0_1_n_n.lhsIdx_val_of_single rfl _ _).trans hk)
  have er : dot_S256x256_S256x2_S256x2_1_0_0_1_n_n.rhsIdx (ix2 r c) ((contrEquiv1 dot_S256x256_S256x2_S256x2_1_0_0_1_n_n 256 rfl rfl).symm k) = ix2 k c := funext fun a => Fin.ext (by
    match a with
    | ⟨1, _⟩ => exact dotp_apply_r _ _
    | ⟨0, _⟩ => exact (dot_S256x256_S256x2_S256x2_1_0_0_1_n_n.rhsIdx_val_of_single rfl _ _).trans hk)
  rw [el, er]

/-! ## The 20 contracted numbers of a row -/

/-- After three chunks: zero plus the three partial sums, in order. -/
theorem pay2_apply (v4 v16 v28 : FVec Ideal S256x3072 .f32) (v8 v20 v32 : FVec Ideal S20x3072 .f32) (r : Fin 256) (c : Fin 20) :
    k0_pay2 (F := Ideal) v4 v8 v16 v20 v28 v32 (ix2 r c)
      = ((Cert.Spec.z0 + ∑ k : Fin 3072, v4 (ix2 r k) * v8 (ix2 c k)) + ∑ k : Fin 3072, v16 (ix2 r k) * v20 (ix2 c k))
          + ∑ k : Fin 3072, v28 (ix2 r k) * v32 (ix2 c k) := by
  unfold k0_pay2
  simp only [shapeCast_self, addf_apply, chunk_apply]
  rfl

/-! ## The three-piece concatenation -/

/-- Three blocks of six columns laid side by side, at entry `(r, c)`: the piece that holds column `c`. -/
theorem cat3_apply (p0 p1 p2 : FVec Ideal S256x6 .f32) (r : Fin 256) (c : Fin 18) :
    concatenate S256x18 1 [⟨S256x6, p0⟩, ⟨S256x6, p1⟩, ⟨S256x6, p2⟩] concatenates_S256x6_S256x6_S256x6_S256x18_d1 (ix2 r c)
      = if h : c.val < 6 then p0 (ix2 r ⟨c.val, h⟩)
        else if h' : c.val < 12 then p1 (ix2 r ⟨c.val - 6, by omega⟩)
        else p2 (ix2 r ⟨c.val - 12, by have := c.isLt; omega⟩) := by
  by_cases h : c.val < 6
  · rw [dif_pos h]
    exact concatenate_apply_piece (t := S256x18) (a := (1 : Fin 2)) (xs := [⟨S256x6, p0⟩, ⟨S256x6, p1⟩, ⟨S256x6, p2⟩]) (h := concatenates_S256x6_S256x6_S256x6_S256x18_d1) (ix2 r c) 0 (by show (0 : ℕ) < 3; omega) S256x6 p0 rfl rfl
      0 rfl (ix2 r ⟨c.val, h⟩) (fun b => match b with | ⟨0, _⟩ => fun _ => rfl | ⟨1, _⟩ => fun hb => absurd rfl hb)
      (by show 0 + c.val = c.val; omega)
  · rw [dif_neg h]
    by_cases h' : c.val < 12
    · rw [dif_pos h']
      exact concatenate_apply_piece (t := S256x18) (a := (1 : Fin 2)) (xs := [⟨S256x6, p0⟩, ⟨S256x6, p1⟩, ⟨S256x6, p2⟩]) (h := concatenates_S256x6_S256x6_S256x6_S256x18_d1) (ix2 r c) 1 (by show (1 : ℕ) < 3; omega) S256x6 p1 rfl rfl
        6 rfl (ix2 r ⟨c.val - 6, by omega⟩) (fun b => match b with | ⟨0, _⟩ => fun _ => rfl | ⟨1, _⟩ => fun hb => absurd rfl hb)
        (by show 6 + (c.val - 6) = c.val; omega)
    · rw [dif_neg h']
      exact concatenate_apply_piece (t := S256x18) (a := (1 : Fin 2)) (xs := [⟨S256x6, p0⟩, ⟨S256x6, p1⟩, ⟨S256x6, p2⟩]) (h := concatenates_S256x6_S256x6_S256x6_S256x18_d1) (ix2 r c) 2 (by show (2 : ℕ) < 3; omega) S256x6 p2 rfl rfl
        12 rfl (ix2 r ⟨c.val - 12, by have := c.isLt; omega⟩) (fun b => match b with | ⟨0, _⟩ => fun _ => rfl | ⟨1, _⟩ => fun hb => absurd rfl hb)
        (by show 12 + (c.val - 12) = c.val; omega)

/-! ## The 18 aggregated numbers of a row -/

/-- The 18 columns made of a block `X` of 20: slices, the two column broadcasts, the products and the concatenation, at entry
    `(r, c)`, are the row combination of row `r` of `X`. -/
theorem combine_apply (X : FVec Ideal S256x20 .f32) (r : Fin 256) (c : Fin 18) :
    concatenate S256x18 1
        [⟨S256x6, extractStridedSlice S256x6 ![0, 12] X slices_S256x20_o0_12_S256x6⟩,
         ⟨S256x6, mulf (extractStridedSlice S256x6 ![0, 6] X slices_S256x20_o0_6_S256x6)
            (broadcastTo S256x6 (extractStridedSlice S256x1 ![0, 19] X slices_S256x20_o0_19_S256x1) broadcasts_S256x1_S256x6)⟩,
         ⟨S256x6, mulf (mulf (extractStridedSlice S256x6 ![0, 0] X slices_S256x20_o0_0_S256x6)
              (broadcastTo S256x6 (extractStridedSlice S256x1 ![0, 18] X slices_S256x20_o0_18_S256x1) broadcasts_S256x1_S256x6))
            (broadcastTo S256x6 (extractStridedSlice S256x1 ![0, 19] X slices_S256x20_o0_19_S256x1) broadcasts_S256x1_S256x6)⟩]
        concatenates_S256x6_S256x6_S256x6_S256x18_d1 (ix2 r c)
      = Cert.SelSum.combine (fun n : Fin 20 => X (ix2 r n)) c := by
  rw [cat3_apply]
  unfold Cert.SelSum.combine
  by_cases h : c.val < 6
  · rw [dif_pos h, dif_pos h]
    exact slice2_axis1_apply 12 X slices_S256x20_o0_12_S256x6 r ⟨c.val, h⟩ ⟨c.val + 12, by omega⟩ (by show c.val + 12 = 12 + c.val; omega)
  · rw [dif_neg h, dif_neg h]
    by_cases h' : c.val < 12
    · rw [dif_pos h', dif_pos h', mulf_apply, Cert.LibKeepdims.broadcastTo_a1_ab_apply]
      refine congrArg₂ (· * ·) ?_ ?_
      · exact slice2_axis1_apply 6 X slices_S256x20_o0_6_S256x6 r ⟨c.val - 6, by omega⟩ ⟨c.val, by omega⟩ (by show c.val = 6 + (c.val - 6); omega)
      · exact slice2_axis1_apply 19 X slices_S256x20_o0_19_S256x1 r (0 : Fin 1) (19 : Fin 20) rfl
    · rw [dif_neg h', dif_neg h', mulf_apply, mulf_apply, Cert.LibKeepdims.broadcastTo_a1_ab_apply,
        Cert.LibKeepdims.broadcastTo_a1_ab_apply]
      refine congrArg₂ (· * ·) (congrArg₂ (· * ·) ?_ ?_) ?_
      · exact slice2_axis1_apply 0 X slices_S256x20_o0_0_S256x6 r ⟨c.val - 12, by have := c.isLt; omega⟩ ⟨c.val - 12, by have := c.isLt; omega⟩ (by show c.val - 12 = 0 + (c.val - 12); omega)
      · exact slice2_axis1_apply 18 X slices_S256x20_o0_18_S256x1 r (0 : Fin 1) (18 : Fin 20) rfl
      · exact slice2_axis1_apply 19 X slices_S256x20_o0_19_S256x1 r (0 : Fin 1) (19 : Fin 20) rfl

/-- The first result's block at entry `(r, c)`: the fourth chunk added to the accumulator, then the row combination. -/
theorem pay3_apply (v36 : FVec Ideal S256x20 .f32) (v40 : FVec Ideal S256x3072 .f32) (v44 : FVec Ideal S20x3072 .f32)
    (r : Fin 256) (c : Fin 18) :
    k0_pay3 (F := Ideal) v36 v40 v44 (ix2 r c)
      = Cert.SelSum.combine (fun n : Fin 20 => v36 (ix2 r n) + ∑ k : Fin 3072, v40 (ix2 r k) * v44 (ix2 n k)) c := by
  unfold k0_pay3
  simp only [shapeCast_self]
  rw [combine_apply]
  refine congrArg (fun f => Cert.SelSum.combine f c) (funext fun n => ?_)
  rw [addf_apply, chunk_apply]
  rfl

/-! ## The perceptron's layers on a block -/

/-- One layer on a block: the product with the weights plus the bias row broadcast down the rows, at entry `(r, n)`, is
    the affine layer of row `r`. -/
theorem dense0_apply (x : FVec Ideal S256x18 .f32) (w : FVec Ideal S18x256 .f32) (b : FVec Ideal S1x256 .f32)
    (b' : Cert.Spec.Arr ⟨1, ![256]⟩) (hb : ∀ n : Fin 256, b (ix2 (0 : Fin 1) n) = b' (ix1 n)) (r : Fin 256) (n : Fin 256) :
    addf (matmul dot_S256x18_S18x256_S256x256_1_0_0_1_n_n none (truncf .bf16 x bitsLt_bf16_f32) (truncf .bf16 w bitsLt_bf16_f32)
        (constant (F := Ideal) S256x256 .f32 0x00000000#32)) (broadcastTo S256x256 b broadcasts_S1x256_S256x256) (ix2 r n)
      = Cert.Spec.dense (fun k : Fin 18 => x (ix2 r k)) w b' n := by
  rw [addf_apply, dot0_apply, broadcastTo_1b_ab_apply, hb]
  rfl

/-- One layer on a block: the product with the weights plus the bias row broadcast down the rows, at entry `(r, n)`, is
    the affine layer of row `r`. -/
theorem dense1_apply (x : FVec Ideal S256x256 .f32) (w : FVec Ideal S256x256 .f32) (b : FVec Ideal S1x256 .f32)
    (b' : Cert.Spec.Arr ⟨1, ![256]⟩) (hb : ∀ n : Fin 256, b (ix2 (0 : Fin 1) n) = b' (ix1 n)) (r : Fin 256) (n : Fin 256) :
    addf (matmul dot_S256x256_S256x256_S256x256_1_0_0_1_n_n none (truncf .bf16 x bitsLt_bf16_f32) (truncf .bf16 w bitsLt_bf16_f32)
        (constant (F := Ideal) S256x256 .f32 0x00000000#32)) (broadcastTo S256x256 b broadcasts_S1x256_S256x256) (ix2 r n)
      = Cert.Spec.dense (fun k : Fin 256 => x (ix2 r k)) w b' n := by
  rw [addf_apply, dot1_apply, broadcastTo_1b_ab_apply, hb]
  rfl

/-- One layer on a block: the product with the weights plus the bias row broadcast down the rows, at entry `(r, n)`, is
    the affine layer of row `r`. -/
theorem densep_apply (x : FVec Ideal S256x256 .f32) (w : FVec Ideal S256x2 .f32) (b : FVec Ideal S1x2 .f32)
    (b' : Cert.Spec.Arr ⟨1, ![2]⟩) (hb : ∀ n : Fin 2, b (ix2 (0 : Fin 1) n) = b' (ix1 n)) (r : Fin 256) (n : Fin 2) :
    addf (matmul dot_S256x256_S256x2_S256x2_1_0_0_1_n_n none (truncf .bf16 x bitsLt_bf16_f32) (truncf .bf16 w bitsLt_bf16_f32)
        (constant (F := Ideal) S256x2 .f32 0x00000000#32)) (broadcastTo S256x2 b broadcasts_S1x2_S256x2) (ix2 r n)
      = Cert.Spec.dense (fun k : Fin 256 => x (ix2 r k)) w b' n := by
  rw [addf_apply, dotp_apply, broadcastTo_1b_ab_apply, hb]
  rfl

/-- The first two hidden layers, at entry `(r, n)`, from the block of aggregated features. -/
theorem pay4_apply (v36 : FVec Ideal S256x20 .f32) (v40 : FVec Ideal S256x3072 .f32) (v44 : FVec Ideal S20x3072 .f32)
    (x2 : FVec Ideal S18x256 .f32) (x3 : FVec Ideal S1x256 .f32) (x4 : FVec Ideal S256x256 .f32) (x5 : FVec Ideal S1x256 .f32)
    (b0 b1 : Cert.Spec.Arr ⟨1, ![256]⟩) (h0 : ∀ n : Fin 256, x3 (ix2 (0 : Fin 1) n) = b0 (ix1 n))
    (h1 : ∀ n : Fin 256, x5 (ix2 (0 : Fin 1) n) = b1 (ix1 n)) (r : Fin 256) (n : Fin 256) :
    k0_pay4 (F := Ideal) v36 v40 v44 x2 x3 x4 x5 (ix2 r n)
      = Cert.Spec.relu (Cert.Spec.dense (fun k1 : Fin 256 => Cert.Spec.relu (Cert.Spec.dense
          (fun k0 : Fin 18 => k0_pay3 (F := Ideal) v36 v40 v44 (ix2 r k0)) x2 b0 k1)) x4 b1 n) := by
  unfold k0_pay4
  simp only [shapeCast_self, maximumf_apply, dense1_apply (b := x5) (b' := b1) (hb := h1), dense0_apply (b := x3) (b' := b0) (hb := h0)]
  rfl

/-- The third hidden layer and the projection, at entry `(r, o)`, from the block the second hidden layer left. -/
theorem pay1_apply (v81 : FVec Ideal S256x256 .f32) (x6 : FVec Ideal S256x256 .f32) (x7 : FVec Ideal S1x256 .f32)
    (x8 : FVec Ideal S256x2 .f32) (x9 : FVec Ideal S1x2 .f32) (b2 : Cert.Spec.Arr ⟨1, ![256]⟩) (bp : Cert.Spec.Arr ⟨1, ![2]⟩)
    (h2 : ∀ n : Fin 256, x7 (ix2 (0 : Fin 1) n) = b2 (ix1 n)) (hp : ∀ n : Fin 2, x9 (ix2 (0 : Fin 1) n) = bp (ix1 n))
    (r : Fin 256) (o : Fin 2) :
    k0_pay1 (F := Ideal) v81 x6 x7 x8 x9 (ix2 r o)
      = Cert.Spec.dense (fun k2 : Fin 256 => Cert.Spec.relu (Cert.Spec.dense (fun k1 : Fin 256 => v81 (ix2 r k1)) x6 b2 k2)) x8 bp o := by
  unfold k0_pay1
  simp only [shapeCast_self, maximumf_apply, densep_apply (b := x9) (b' := bp) (hb := hp), dense1_apply (b := x7) (b' := b2) (hb := h2)]
  rfl

/-- The second result's block at entry `(r, o)`: the perceptron of row `r` of the first result's block. -/
theorem mlp_apply (v36 : FVec Ideal S256x20 .f32) (v40 : FVec Ideal S256x3072 .f32) (v44 : FVec Ideal S20x3072 .f32)
    (x2 : FVec Ideal S18x256 .f32) (x3 : FVec Ideal S1x256 .f32) (x4 : FVec Ideal S256x256 .f32) (x5 : FVec Ideal S1x256 .f32)
    (x6 : FVec Ideal S256x256 .f32) (x7 : FVec Ideal S1x256 .f32) (x8 : FVec Ideal S256x2 .f32) (x9 : FVec Ideal S1x2 .f32)
    (b0 b1 b2 : Cert.Spec.Arr ⟨1, ![256]⟩) (bp : Cert.Spec.Arr ⟨1, ![2]⟩)
    (h0 : ∀ n : Fin 256, x3 (ix2 (0 : Fin 1) n) = b0 (ix1 n)) (h1 : ∀ n : Fin 256, x5 (ix2 (0 : Fin 1) n) = b1 (ix1 n))
    (h2 : ∀ n : Fin 256, x7 (ix2 (0 : Fin 1) n) = b2 (ix1 n)) (hp : ∀ n : Fin 2, x9 (ix2 (0 : Fin 1) n) = bp (ix1 n))
    (r : Fin 256) (o : Fin 2) :
    k0_pay1 (F := Ideal) (k0_pay4 (F := Ideal) v36 v40 v44 x2 x3 x4 x5) x6 x7 x8 x9 (ix2 r o)
      = Cert.Spec.mlpRow (fun k0 : Fin 18 => k0_pay3 (F := Ideal) v36 v40 v44 (ix2 r k0)) x2 b0 x4 b1 x6 b2 x8 bp o := by
  rw [pay1_apply _ x6 x7 x8 x9 b2 bp h2 hp]
  simp only [pay4_apply v36 v40 v44 x2 x3 x4 x5 b0 b1 h0 h1]
  rfl

end Cert.KernelIdeal.Row

end
-- ==== Proof.KernelBlock.lean ====
/-
  A result block against the specification, over variables. If a block `X0` of 256 rows of the flattened adjacency has
  row `r` equal to row `i` of the whole, and `X1` is the selector, then: the four chunks' partial sums, added to a zero
  accumulator in order, are the one sum over all 12288 positions (a position is `3072 q + k'`); so row `r` of the 20
  contracted numbers is `res i`, the first result's block has row `r` equal to the aggregated row `i`, and the second
  result's block has row `r` equal to the perceptron of that row.
-/
import proofs.«111064_j25305947308075_2_alg».proof.Proof.KernelOut
import proofs.«111064_j25305947308075_2_alg».proof.Proof.KernelRow

noncomputable section

namespace Cert.KernelIdeal.Block

open Cert.KernelIdeal Cert.KernelIdeal.Gen Cert.KernelIdeal.Out Idealize.ShloMosaic Idealize.ShloMosaic.ValueIdx

/-- Chunk `q` of a block of the flattened adjacency, at `(r, k)`: the block at column `3072 q + k`. -/
theorem chunkA_apply (x0 : Vec Ideal S256x12288 .f32) (q : Fin 4) (o : ℕ) (ho : o = q.val * 3072)
    (h : ∀ a, (![0, o] : Fin 2 → ℕ) a + S256x3072.size a ≤ S256x12288.size a) (r : Fin 256) (k : Fin 3072) :
    chunkA x0 o h (ix2 r k) = x0 (ix2 r ⟨q.val * 3072 + k.val, Cert.SelSum.pos_lt q k⟩) := by
  subst ho
  show x0 ((Rect.unit (s := S256x12288) ![0, q.val * 3072] S256x3072.size h).emb (ix2 r k)) = _
  refine congrArg x0 (funext fun a => Fin.ext ?_)
  match a with
  | ⟨0, _⟩ => show 0 + 1 * r.val = r.val; omega
  | ⟨1, _⟩ => show q.val * 3072 + 1 * k.val = q.val * 3072 + k.val; omega

/-- Chunk `q` of the selector, at `(n, k)`: the selector at column `3072 q + k`. -/
theorem chunkM_apply (x1 : Vec Ideal S20x12288 .f32) (q : Fin 4) (o : ℕ) (ho : o = q.val * 3072)
    (h : ∀ a, (![0, o] : Fin 2 → ℕ) a + S20x3072.size a ≤ S20x12288.size a) (n : Fin 20) (k : Fin 3072) :
    chunkM x1 o h (ix2 n k) = x1 (ix2 n ⟨q.val * 3072 + k.val, Cert.SelSum.pos_lt q k⟩) := by
  subst ho
  show x1 ((Rect.unit (s := S20x12288) ![0, q.val * 3072] S20x3072.size h).emb (ix2 n k)) = _
  refine congrArg x1 (funext fun a => Fin.ext ?_)
  match a with
  | ⟨0, _⟩ => show 0 + 1 * n.val = n.val; omega
  | ⟨1, _⟩ => show q.val * 3072 + 1 * k.val = q.val * 3072 + k.val; omega

/-- Zero plus the four chunks' partial sums, in order, is the sum over all positions. -/
theorem four_chunks (f : Fin 12288 → EReal) :
    (((Cert.Spec.z0 + ∑ k : Fin 3072, f ⟨(0 : Fin 4).val * 3072 + k.val, Cert.SelSum.pos_lt (0 : Fin 4) k⟩)
        + ∑ k : Fin 3072, f ⟨(1 : Fin 4).val * 3072 + k.val, Cert.SelSum.pos_lt (1 : Fin 4) k⟩)
        + ∑ k : Fin 3072, f ⟨(2 : Fin 4).val * 3072 + k.val, Cert.SelSum.pos_lt (2 : Fin 4) k⟩)
        + ∑ k : Fin 3072, f ⟨(3 : Fin 4).val * 3072 + k.val, Cert.SelSum.pos_lt (3 : Fin 4) k⟩
      = ∑ k : Fin 12288, f k := by
  rw [Cert.SelSum.sum_digits 4 3072 f, Fin.sum_univ_four]
  show (((Ideal.ofBits .f32 0x00000000#32 + _) + _) + _) + _ = _
  rw [Ideal.ofBits_zero_f32, zero_add]

/-- Row `r` of the 20 contracted numbers: the accumulator after three chunks plus the fourth chunk's partial sum is the
    contraction of the whole row with the selector row. -/
theorem contracted_apply (X0 : Vec Ideal S256x12288 .f32) (X1 : Vec Ideal S20x12288 .f32) (r : Fin 256) (n : Fin 20) :
    acc3 X0 X1 (ix2 r n) + ∑ k : Fin 3072, chunkA X0 9216 (by decide) (ix2 r k) * chunkM X1 9216 (by decide) (ix2 n k)
      = ∑ k : Fin 12288, X0 (ix2 r k) * X1 (ix2 n k) := by
  show k0_pay2 (F := Ideal) (chunkA X0 0 (by decide)) (chunkM X1 0 (by decide)) (chunkA X0 3072 (by decide)) (chunkM X1 3072 (by decide))
      (chunkA X0 6144 (by decide)) (chunkM X1 6144 (by decide)) (ix2 r n) + _ = _
  rw [Cert.KernelIdeal.Row.pay2_apply]
  simp only [chunkA_apply X0 0 0 rfl, chunkA_apply X0 1 3072 rfl, chunkA_apply X0 2 6144 rfl, chunkA_apply X0 3 9216 rfl,
    chunkM_apply X1 0 0 rfl, chunkM_apply X1 1 3072 rfl, chunkM_apply X1 2 6144 rfl, chunkM_apply X1 3 9216 rfl]
  exact four_chunks (fun k : Fin 12288 => X0 (ix2 r k) * X1 (ix2 n k))

variable (a : Cert.Spec.Arr ⟨3, ![4096, 4096, 3]⟩) (vis : Cert.Spec.Arr ⟨3, ![4096, 3, 36]⟩) (Wv : Cert.Spec.Arr ⟨2, ![36, 6]⟩)
  (bv : Cert.Spec.Arr ⟨1, ![6]⟩)

/-- Row `r` of the first result's block is the aggregated row `i`, when row `r` of the adjacency block is row `i` of the
    flattened adjacency and the second block is the selector. -/
theorem agg_block (X0 : Vec Ideal S256x12288 .f32) (X1 : Vec Ideal S20x12288 .f32) (i : Fin 4096) (r : Fin 256)
    (hX0 : ∀ k : Fin 12288, X0 (ix2 r k) = Cert.Spec.aflat a i k)
    (hX1 : ∀ (n : Fin 20) (k : Fin 12288), X1 (ix2 n k) = Cert.Spec.sel vis Wv bv n k) (col : Fin 18) :
    k0_pay3 (F := Ideal) (acc3 X0 X1) (chunkA X0 9216 (by decide)) (chunkM X1 9216 (by decide)) (ix2 r col)
      = Cert.Spec.aggRow a vis Wv bv i col := by
  rw [Cert.KernelIdeal.Row.pay3_apply]
  have e : (fun n : Fin 20 => acc3 X0 X1 (ix2 r n)
        + ∑ k : Fin 3072, chunkA X0 9216 (by decide) (ix2 r k) * chunkM X1 9216 (by decide) (ix2 n k))
      = Cert.SelSum.res a vis Wv bv i := funext fun n => by
    rw [contracted_apply]
    unfold Cert.SelSum.res
    exact Finset.sum_congr rfl fun k _ => by rw [hX0, hX1]
  rw [e, Cert.SelSum.combine_res]

/-- Row `r` of the second result's block is the perceptron of the aggregated row `i`, under the same hypotheses and with
    each bias block's one row the bias vector. -/
theorem mlp_block (X0 : Vec Ideal S256x12288 .f32) (X1 : Vec Ideal S20x12288 .f32) (i : Fin 4096) (r : Fin 256)
    (hX0 : ∀ k : Fin 12288, X0 (ix2 r k) = Cert.Spec.aflat a i k)
    (hX1 : ∀ (n : Fin 20) (k : Fin 12288), X1 (ix2 n k) = Cert.Spec.sel vis Wv bv n k)
    (x2 : FVec Ideal S18x256 .f32) (x3 : FVec Ideal S1x256 .f32) (x4 : FVec Ideal S256x256 .f32) (x5 : FVec Ideal S1x256 .f32)
    (x6 : FVec Ideal S256x256 .f32) (x7 : FVec Ideal S1x256 .f32) (x8 : FVec Ideal S256x2 .f32) (x9 : FVec Ideal S1x2 .f32)
    (b0 b1 b2 : Cert.Spec.Arr ⟨1, ![256]⟩) (bp : Cert.Spec.Arr ⟨1, ![2]⟩)
    (h0 : ∀ n : Fin 256, x3 (ix2 (0 : Fin 1) n) = b0 (ix1 n)) (h1 : ∀ n : Fin 256, x5 (ix2 (0 : Fin 1) n) = b1 (ix1 n))
    (h2 : ∀ n : Fin 256, x7 (ix2 (0 : Fin 1) n) = b2 (ix1 n)) (hp : ∀ n : Fin 2, x9 (ix2 (0 : Fin 1) n) = bp (ix1 n))
    (o : Fin 2) :
    k0_pay1 (F := Ideal) (k0_pay4 (F := Ideal) (acc3 X0 X1) (chunkA X0 9216 (by decide)) (chunkM X1 9216 (by decide)) x2 x3 x4 x5)
        x6 x7 x8 x9 (ix2 r o)
      = Cert.Spec.mlpRow (Cert.Spec.aggRow a vis Wv bv i) x2 b0 x4 b1 x6 b2 x8 bp o := by
  rw [Cert.KernelIdeal.Row.mlp_apply (acc3 X0 X1) (chunkA X0 9216 (by decide)) (chunkM X1 9216 (by decide)) x2 x3 x4 x5 x6 x7 x8 x9
    b0 b1 b2 bp h0 h1 h2 hp r o]
  have e : (fun k0 : Fin 18 => k0_pay3 (F := Ideal) (acc3 X0 X1) (chunkA X0 9216 (by decide)) (chunkM X1 9216 (by decide)) (ix2 r k0))
      = Cert.Spec.aggRow a vis Wv bv i := funext fun k0 => agg_block a vis Wv bv X0 X1 i r hX0 hX1 k0
  rw [e]

end Cert.KernelIdeal.Block

end
-- ==== Proof.Prelude.lean ====
/-
  What the one region of the kernel program finds in the arrays the host operations before it wrote, read at an
  index, as functions of the argument arrays (extended reals):
    • the four bias rows: an `[n]` argument read as `[1, n]`;
    • the flattened adjacency: `[4096, 4096, 3]` read as `[4096, 12288]`, position `k = 3 j + t`;
    • the selector, 20 rows of 12288: for a row `6 t' + v < 18` the feature `v` of agent `k / 3` at step `k % 3`
      times the 3 × 3 identity at `(k % 3, t')`, and for rows 18 and 19 the identity at `(k % 3, 1)` and `(k % 3, 2)`.
  The selector is built in stages, each read at an index by its own lemma: the identity (row number equal to column
  number, as a float), the features (an affine layer of the 36 observations, 12288 rows of 6 read as `[4096, 3, 6]`),
  the features spread over a second step axis by the identity (12288 rows of 18), the identity repeated for every
  agent with its first column dropped (12288 rows of 2), and the two side by side, transposed.
-/
import proofs.«111064_j25305947308075_2_alg».proof.Proof.Gen.KernelIdeal.Frame
import proofs.«111064_j25305947308075_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The four bias rows: an `[n]` array read as `[1, n]` -/

theorem V_b0 (n : Fin 256) :
    (V m c main_v25 : S1x256.Idx → EReal) (ix2 (0 : Fin 1) n) = m ((c : Thread nD τ).loc main_arg5) (ix1 n) := by
  have e : (V m c main_v25 : S1x256.Idx → EReal)
      = shapeCast S1x256 (m ((c : Thread nD τ).loc main_arg5) : S256.Idx → EReal) shapeCasts_S256_S1x256 := by
    dsimp only [Gen.V, Gen.hostOps0]; after_results_simp; rfl
  rw [e]
  exact shapeCast_a_1a_apply _ _ 0 n

theorem V_b1 (n : Fin 256) :
    (V m c main_v26 : S1x256.Idx → EReal) (ix2 (0 : Fin 1) n) = m ((c : Thread nD τ).loc main_arg7) (ix1 n) := by
  have e : (V m c main_v26 : S1x256.Idx → EReal)
      = shapeCast S1x256 (m ((c : Thread nD τ).loc main_arg7) : S256.Idx → EReal) shapeCasts_S256_S1x256 := by
    dsimp only [Gen.V, Gen.hostOps0]; after_results_simp; rfl
  rw [e]
  exact shapeCast_a_1a_apply _ _ 0 n

theorem V_b2 (n : Fin 256) :
    (V m c main_v27 : S1x256.Idx → EReal) (ix2 (0 : Fin 1) n) = m ((c : Thread nD τ).loc main_arg9) (ix1 n) := by
  have e : (V m c main_v27 : S1x256.Idx → EReal)
      = shapeCast S1x256 (m ((c : Thread nD τ).loc main_arg9) : S256.Idx → EReal) shapeCasts_S256_S1x256 := by
    dsimp only [Gen.V, Gen.hostOps0]; after_results_simp; rfl
  rw [e]
  exact shapeCast_a_1a_apply _ _ 0 n

theorem V_bp (n : Fin 2) :
    (V m c main_v28 : S1x2.Idx → EReal) (ix2 (0 : Fin 1) n) = m ((c : Thread nD τ).loc main_arg11) (ix1 n) := by
  have e : (V m c main_v28 : S1x2.Idx → EReal)
      = shapeCast S1x2 (m ((c : Thread nD τ).loc main_arg11) : S2.Idx → EReal) shapeCasts_S2_S1x2 := by
    dsimp only [Gen.V, Gen.hostOps0]; after_results_simp; rfl
  rw [e]
  exact shapeCast_a_1a_apply _ _ 0 n

/-! ## The flattened adjacency -/

theorem V_aflat (i : Fin 4096) (k : Fin 12288) :
    (V m c main_v24 : S4096x12288.Idx → EReal) (ix2 i k) = Cert.Spec.aflat (m ((c : Thread nD τ).loc main_arg1)) i k := by
  have e : (V m c main_v24 : S4096x12288.Idx → EReal)
      = shapeCast S4096x12288 (m ((c : Thread nD τ).loc main_arg1) : S4096x4096x3.Idx → EReal) shapeCasts_S4096x4096x3_S4096x12288 := by
    dsimp only [Gen.V, Gen.hostOps0]; after_results_simp; rfl
  rw [e]
  unfold Cert.Spec.aflat
  refine shapeCast_apply _ shapeCasts_S4096x4096x3_S4096x12288 _ _ ?_
  rw [Shape.rowMajor_val_three, Shape.rowMajor_val_two]
  have hi := i.isLt
  have hk := k.isLt
  show (i.val * 4096 + k.val / 3) * 3 + k.val % 3 = i.val * 12288 + k.val
  omega

/-! ## The 3 × 3 identity -/

/-- The identity as the program builds it: row number equal to column number, as a float. -/
def eyeT : S3x3.Idx → EReal :=
  uitofp (F := Ideal) .f32 (cmpi .eq (addi (iotaInDim S3x3 32 0) (broadcastInDim S3x3 ![] bcast_S_S3x3 (constantI S_ 32 0#32)))
    (iotaInDim S3x3 32 1))

theorem eyeT_apply (t t' : Fin 3) : eyeT (ix2 t t') = Cert.Spec.eye t.val t'.val := by
  have h : eyeT (ix2 t t')
      = (((IntOp.cmpi .eq (IntOp.addi (BitVec.ofNat 32 t.val) (0#32)) (BitVec.ofNat 32 t'.val)).toNat : ℝ) : EReal) := rfl
  rw [h]
  unfold Cert.Spec.eye
  match t, t' with
  | ⟨0, _⟩, ⟨0, _⟩ => simp [IntOp.cmpi, IntOp.addi]
  | ⟨0, _⟩, ⟨1, _⟩ => simp [IntOp.cmpi, IntOp.addi]
  | ⟨0, _⟩, ⟨2, _⟩ => simp [IntOp.cmpi, IntOp.addi]
  | ⟨1, _⟩, ⟨0, _⟩ => simp [IntOp.cmpi, IntOp.addi]
  | ⟨1, _⟩, ⟨1, _⟩ => simp [IntOp.cmpi, IntOp.addi]
  | ⟨1, _⟩, ⟨2, _⟩ => simp [IntOp.cmpi, IntOp.addi]
  | ⟨2, _⟩, ⟨0, _⟩ => simp [IntOp.cmpi, IntOp.addi]
  | ⟨2, _⟩, ⟨1, _⟩ => simp [IntOp.cmpi, IntOp.addi]
  | ⟨2, _⟩, ⟨2, _⟩ => simp [IntOp.cmpi, IntOp.addi]

/-! ## The features: one affine layer of the observations, 12288 rows of 6 read as [4096, 3, 6] -/

theorem dot_lhs_0 (i : S12288x6.Idx) (q : dot_S12288x36_S36x6_S12288x6_1_0_0_1_n_n.contr.Idx) : (dot_S12288x36_S36x6_S12288x6_1_0_0_1_n_n.lhsIdx i q 0).val = (i 0).val := by
  unfold DotDims.lhsIdx
  rw [dif_neg (show ¬(0 : Fin S12288x36.rank) ∈ dot_S12288x36_S36x6_S12288x6_1_0_0_1_n_n.lhsBatch by decide), dif_pos (show (0 : Fin S12288x36.rank) ∈ dot_S12288x36_S36x6_S12288x6_1_0_0_1_n_n.lhsNonContracting by decide)]
  rfl
theorem dot_lhs_1 (i : S12288x6.Idx) (q : dot_S12288x36_S36x6_S12288x6_1_0_0_1_n_n.contr.Idx) : (dot_S12288x36_S36x6_S12288x6_1_0_0_1_n_n.lhsIdx i q 1).val = (q ⟨0, by decide⟩).val :=
  dot_S12288x36_S36x6_S12288x6_1_0_0_1_n_n.lhsIdx_val_of_single rfl i q
theorem dot_rhs_0 (i : S12288x6.Idx) (q : dot_S12288x36_S36x6_S12288x6_1_0_0_1_n_n.contr.Idx) : (dot_S12288x36_S36x6_S12288x6_1_0_0_1_n_n.rhsIdx i q 0).val = (q ⟨0, by decide⟩).val :=
  dot_S12288x36_S36x6_S12288x6_1_0_0_1_n_n.rhsIdx_val_of_single rfl i q
theorem dot_rhs_1 (i : S12288x6.Idx) (q : dot_S12288x36_S36x6_S12288x6_1_0_0_1_n_n.contr.Idx) : (dot_S12288x36_S36x6_S12288x6_1_0_0_1_n_n.rhsIdx i q 1).val = (i 1).val := by
  unfold DotDims.rhsIdx
  rw [dif_neg (show ¬(1 : Fin S36x6.rank) ∈ dot_S12288x36_S36x6_S12288x6_1_0_0_1_n_n.rhsBatch by decide), dif_pos (show (1 : Fin S36x6.rank) ∈ dot_S12288x36_S36x6_S12288x6_1_0_0_1_n_n.rhsNonContracting by decide)]
  rfl

/-- The 12288 × 36 by 36 × 6 product at an index: the sum over the contracted coordinate. -/
theorem dot_apply (y : FVec Ideal S12288x36 .f32) (x2 : FVec Ideal S36x6 .f32) (r : Fin 12288) (v : Fin 6) :
    (Host.dotGeneral (F := Ideal) dot_S12288x36_S36x6_S12288x6_1_0_0_1_n_n none y x2 : FVec Ideal S12288x6 .f32) (ix2 r v)
      = ∑ f : Fin 36, y (ix2 r f) * x2 (ix2 f v) := by
  simp only [Host.dotGeneral]
  rw [Ideal.dotGeneral_apply, ← Equiv.sum_comp (ValueIdx.contrEquiv1 dot_S12288x36_S36x6_S12288x6_1_0_0_1_n_n 36 rfl rfl).symm]
  refine Finset.sum_congr rfl fun k _ => ?_
  have hk := ValueIdx.contrEquiv1_symm_val dot_S12288x36_S36x6_S12288x6_1_0_0_1_n_n 36 rfl rfl k
  have el : dot_S12288x36_S36x6_S12288x6_1_0_0_1_n_n.lhsIdx (ix2 r v) ((ValueIdx.contrEquiv1 dot_S12288x36_S36x6_S12288x6_1_0_0_1_n_n 36 rfl rfl).symm k) = ix2 r k := funext fun a => Fin.ext (by
    match a with
    | ⟨0, _⟩ => exact dot_lhs_0 _ _
    | ⟨1, _⟩ => exact (dot_lhs_1 _ _).trans hk)
  have er : dot_S12288x36_S36x6_S12288x6_1_0_0_1_n_n.rhsIdx (ix2 r v) ((ValueIdx.contrEquiv1 dot_S12288x36_S36x6_S12288x6_1_0_0_1_n_n 36 rfl rfl).symm k) = ix2 k v := funext fun a => Fin.ext (by
    match a with
    | ⟨0, _⟩ => exact (dot_rhs_0 _ _).trans hk
    | ⟨1, _⟩ => exact dot_rhs_1 _ _)
  rw [el, er]

/-- The feature array as the program builds it from the observations, the layer's weights and its bias. -/
def featT (x0 : FVec Ideal S4096x3x36 .f32) (x2 : FVec Ideal S36x6 .f32)
    (x3 : FVec Ideal S6 .f32) : FVec Ideal S4096x3x6 .f32 :=
  shapeCast S4096x3x6
    (addf (F := Ideal) (φ := .f32) (Host.dotGeneral (F := Ideal) dot_S12288x36_S36x6_S12288x6_1_0_0_1_n_n none (shapeCast S12288x36 x0 shapeCasts_S4096x3x36_S12288x36) x2
        : FVec Ideal S12288x6 .f32)
      (broadcastInDim S12288x6 ![0, 1] bcast_S1x6_S12288x6_0_1 (broadcastInDim S1x6 ![1] bcast_S6_S1x6_1 x3)))
    shapeCasts_S12288x6_S4096x3x6

/-- Row `3 j + t` of the reshaped observations is agent `j` at step `t`. -/
theorem vis_apply (x0 : FVec Ideal S4096x3x36 .f32) (j : Fin 4096) (t : Fin 3) (f : Fin 36) (r : Fin 12288)
    (hr : r.val = 3 * j.val + t.val) :
    shapeCast S12288x36 x0 shapeCasts_S4096x3x36_S12288x36 (ix2 r f) = x0 (ix3 j t f) := by
  refine shapeCast_apply x0 shapeCasts_S4096x3x36_S12288x36 _ _ ?_
  rw [Shape.rowMajor_val_three, Shape.rowMajor_val_two]
  show (j.val * 3 + t.val) * 36 + f.val = r.val * 36 + f.val
  omega

/-- The bias broadcast over the rows. -/
theorem bias_apply (x3 : FVec Ideal S6 .f32) (r : Fin 12288) (v : Fin 6) :
    broadcastInDim S12288x6 ![0, 1] bcast_S1x6_S12288x6_0_1 (broadcastInDim S1x6 ![1] bcast_S6_S1x6_1 x3) (ix2 r v) = x3 (ix1 v) := by
  rw [broadcastInDim_apply _ bcast_S1x6_S12288x6_0_1 _ (ix2 r v) (ix2 (0 : Fin 1) v) (fun a => match a with
    | ⟨0, _⟩ => by show 0 = if (1 : Nat) = 1 then 0 else r.val; rw [if_pos rfl]
    | ⟨1, _⟩ => by show v.val = if (6 : Nat) = 1 then 0 else v.val; rw [if_neg (by decide)])]
  exact broadcastInDim_apply _ bcast_S6_S1x6_1 x3 (ix2 (0 : Fin 1) v) (ix1 v) (fun a => match a with
    | ⟨0, _⟩ => by show v.val = if (6 : Nat) = 1 then 0 else v.val; rw [if_neg (by decide)])

theorem featT_apply (x0 : FVec Ideal S4096x3x36 .f32) (x2 : FVec Ideal S36x6 .f32)
    (x3 : FVec Ideal S6 .f32) (j : Fin 4096) (t : Fin 3) (v : Fin 6) :
    featT x0 x2 x3 (ix3 j t v) = Cert.Spec.feat x0 x2 x3 j t v := by
  have hr : 3 * j.val + t.val < 12288 := by have := j.isLt; have := t.isLt; omega
  unfold featT
  rw [shapeCast_apply _ shapeCasts_S12288x6_S4096x3x6 (ix3 j t v) (ix2 (⟨3 * j.val + t.val, hr⟩ : Fin 12288) v) (by
    rw [Shape.rowMajor_val_three, Shape.rowMajor_val_two]
    show (3 * j.val + t.val) * 6 + v.val = (j.val * 3 + t.val) * 6 + v.val
    omega)]
  rw [addf_apply, dot_apply, bias_apply]
  unfold Cert.Spec.feat
  congr 1
  refine Finset.sum_congr rfl fun f _ => ?_
  rw [vis_apply x0 j t f ⟨3 * j.val + t.val, hr⟩ rfl]

/-! ## The two blocks of the selector and their join -/

/-- The features spread over a step axis by the identity, 12288 rows of 18: row `3 j + t`, column `6 t' + v`. -/
def bT (y5 : FVec Ideal S4096x3x6 .f32) (y11 : FVec Ideal S3x3 .f32) :
    FVec Ideal S12288x18 .f32 :=
  shapeCast S12288x18
    (mulf (F := Ideal) (φ := .f32)
      (broadcastInDim S4096x3x3x6 ![0, 1, 2, 3] bcast_S4096x3x1x6_S4096x3x3x6_0_1_2_3
        (broadcastInDim S4096x3x1x6 ![0, 1, 3] bcast_S4096x3x6_S4096x3x1x6_0_1_3 y5))
      (broadcastInDim S4096x3x3x6 ![0, 1, 2, 3] bcast_S1x3x3x1_S4096x3x3x6_0_1_2_3
        (broadcastInDim S1x3x3x1 ![1, 2] bcast_S3x3_S1x3x3x1_1_2 y11)))
    shapeCasts_S4096x3x3x6_S12288x18

theorem bT_apply (y5 : FVec Ideal S4096x3x6 .f32) (y11 : FVec Ideal S3x3 .f32)
    (j : Fin 4096) (t t' : Fin 3) (v : Fin 6) (k : Fin 12288) (col : Fin 18)
    (hk : k.val = 3 * j.val + t.val) (hc : col.val = 6 * t'.val + v.val) :
    bT y5 y11 (ix2 k col) = y5 (ix3 j t v) * y11 (ix2 t t') := by
  unfold bT
  rw [shapeCast_apply _ shapeCasts_S4096x3x3x6_S12288x18 (ix2 k col) (ix4 j t t' v) (by
    rw [Shape.rowMajor_val_four, Shape.rowMajor_val_two]
    show ((j.val * 3 + t.val) * 3 + t'.val) * 6 + v.val = k.val * 18 + col.val
    omega)]
  rw [mulf_apply]
  congr 1
  · rw [broadcastInDim_apply _ bcast_S4096x3x1x6_S4096x3x3x6_0_1_2_3 _ (ix4 j t t' v) (ix4 j t (0 : Fin 1) v) (fun a => match a with
      | ⟨0, _⟩ => by show j.val = if (4096 : Nat) = 1 then 0 else j.val; rw [if_neg (by decide)]
      | ⟨1, _⟩ => by show t.val = if (3 : Nat) = 1 then 0 else t.val; rw [if_neg (by decide)]
      | ⟨2, _⟩ => by show 0 = if (1 : Nat) = 1 then 0 else t'.val; rw [if_pos rfl]
      | ⟨3, _⟩ => by show v.val = if (6 : Nat) = 1 then 0 else v.val; rw [if_neg (by decide)])]
    exact broadcastInDim_apply _ bcast_S4096x3x6_S4096x3x1x6_0_1_3 y5 (ix4 j t (0 : Fin 1) v) (ix3 j t v) (fun a => match a with
      | ⟨0, _⟩ => by show j.val = if (4096 : Nat) = 1 then 0 else j.val; rw [if_neg (by decide)]
      | ⟨1, _⟩ => by show t.val = if (3 : Nat) = 1 then 0 else t.val; rw [if_neg (by decide)]
      | ⟨2, _⟩ => by show v.val = if (6 : Nat) = 1 then 0 else v.val; rw [if_neg (by decide)])
  · rw [broadcastInDim_apply _ bcast_S1x3x3x1_S4096x3x3x6_0_1_2_3 _ (ix4 j t t' v) (ix4 (0 : Fin 1) t t' (0 : Fin 1)) (fun a => match a with
      | ⟨0, _⟩ => by show 0 = if (1 : Nat) = 1 then 0 else j.val; rw [if_pos rfl]
      | ⟨1, _⟩ => by show t.val = if (3 : Nat) = 1 then 0 else t.val; rw [if_neg (by decide)]
      | ⟨2, _⟩ => by show t'.val = if (3 : Nat) = 1 then 0 else t'.val; rw [if_neg (by decide)]
      | ⟨3, _⟩ => by show 0 = if (1 : Nat) = 1 then 0 else v.val; rw [if_pos rfl])]
    exact broadcastInDim_apply _ bcast_S3x3_S1x3x3x1_1_2 y11 (ix4 (0 : Fin 1) t t' (0 : Fin 1)) (ix2 t t') (fun a => match a with
      | ⟨0, _⟩ => by show t.val = if (3 : Nat) = 1 then 0 else t.val; rw [if_neg (by decide)]
      | ⟨1, _⟩ => by show t'.val = if (3 : Nat) = 1 then 0 else t'.val; rw [if_neg (by decide)])

/-- The identity repeated for every agent, 12288 rows of 3, its first column dropped: 12288 rows of 2. -/
def cT (y11 : FVec Ideal S3x3 .f32) : FVec Ideal S12288x2 .f32 :=
  extractStridedSlice S12288x2 ![0, 1]
    (shapeCast S12288x3
      (broadcastInDim S4096x3x3 ![0, 1, 2] bcast_S1x3x3_S4096x3x3_0_1_2 (broadcastInDim S1x3x3 ![1, 2] bcast_S3x3_S1x3x3_1_2 y11))
      shapeCasts_S4096x3x3_S12288x3)
    slices_S12288x3_S12288x2_0_1

theorem cT_apply (y11 : FVec Ideal S3x3 .f32) (j : Fin 4096) (t u : Fin 3) (k : Fin 12288) (s : Fin 2)
    (hk : k.val = 3 * j.val + t.val) (hu : u.val = s.val + 1) :
    cT y11 (ix2 k s) = y11 (ix2 t u) := by
  unfold cT
  rw [extractStridedSlice_apply ![0, 1] _ slices_S12288x3_S12288x2_0_1 (ix2 k s) (ix2 k u) (fun a => match a with
    | ⟨0, _⟩ => by show k.val = 0 + k.val; omega
    | ⟨1, _⟩ => by show u.val = 1 + s.val; omega)]
  rw [shapeCast_apply _ shapeCasts_S4096x3x3_S12288x3 (ix2 k u) (ix3 j t u) (by
    rw [Shape.rowMajor_val_three, Shape.rowMajor_val_two]
    show (j.val * 3 + t.val) * 3 + u.val = k.val * 3 + u.val
    omega)]
  rw [broadcastInDim_apply _ bcast_S1x3x3_S4096x3x3_0_1_2 _ (ix3 j t u) (ix3 (0 : Fin 1) t u) (fun a => match a with
    | ⟨0, _⟩ => by show 0 = if (1 : Nat) = 1 then 0 else j.val; rw [if_pos rfl]
    | ⟨1, _⟩ => by show t.val = if (3 : Nat) = 1 then 0 else t.val; rw [if_neg (by decide)]
    | ⟨2, _⟩ => by show u.val = if (3 : Nat) = 1 then 0 else u.val; rw [if_neg (by decide)])]
  exact broadcastInDim_apply _ bcast_S3x3_S1x3x3_1_2 y11 (ix3 (0 : Fin 1) t u) (ix2 t u) (fun a => match a with
    | ⟨0, _⟩ => by show t.val = if (3 : Nat) = 1 then 0 else t.val; rw [if_neg (by decide)]
    | ⟨1, _⟩ => by show u.val = if (3 : Nat) = 1 then 0 else u.val; rw [if_neg (by decide)])

/-- The two blocks side by side, transposed: 20 rows of 12288. -/
def selT (yB : FVec Ideal S12288x18 .f32) (yC : FVec Ideal S12288x2 .f32) :
    FVec Ideal S20x12288 .f32 :=
  transpose S20x12288 [1, 0]
    (concatenate S12288x20 1 [⟨S12288x18, yB⟩, ⟨S12288x2, yC⟩] concatenates_S12288x18_S12288x2_S12288x20_d1)
    transposes_S12288x20_S20x12288_1_0

theorem selT_left (yB : FVec Ideal S12288x18 .f32) (yC : FVec Ideal S12288x2 .f32)
    (r : Fin 20) (k : Fin 12288) (col : Fin 18) (h : col.val = r.val) :
    selT yB yC (ix2 r k) = yB (ix2 k col) := by
  unfold selT
  rw [transpose_ix2_apply]
  exact concatenate_pair_apply_left (1 : Fin S12288x20.rank) yB yC concatenates_S12288x18_S12288x2_S12288x20_d1 (ix2 k r) rfl (ix2 k col)
    (fun b => match b with
      | ⟨0, _⟩ => rfl
      | ⟨1, _⟩ => h)

theorem selT_right (yB : FVec Ideal S12288x18 .f32) (yC : FVec Ideal S12288x2 .f32)
    (r : Fin 20) (k : Fin 12288) (s : Fin 2) (h : s.val + 18 = r.val) :
    selT yB yC (ix2 r k) = yC (ix2 k s) := by
  unfold selT
  rw [transpose_ix2_apply]
  exact concatenate_pair_apply_right (1 : Fin S12288x20.rank) yB yC concatenates_S12288x18_S12288x2_S12288x20_d1 (ix2 k r) rfl rfl (ix2 k s)
    (fun b => match b with
      | ⟨0, _⟩ => fun _ => rfl
      | ⟨1, _⟩ => fun hne => absurd rfl hne)
    h

/-! ## The selector -/

/-- What the region finds in the selector's buffer: the host operations' term of the three arguments it depends on. -/
theorem V_v23_eq :
    (V m c main_v23 : S20x12288.Idx → EReal)
      = selT (bT (featT (m ((c : Thread nD τ).loc main_arg0)) (m ((c : Thread nD τ).loc main_arg2)) (m ((c : Thread nD τ).loc main_arg3))) eyeT)
          (cT eyeT) := by
  dsimp only [Gen.V, Gen.hostOps0]
  after_results_simp
  rfl

theorem V_sel (r : Fin 20) (k : Fin 12288) :
    (V m c main_v23 : S20x12288.Idx → EReal) (ix2 r k)
      = Cert.Spec.sel (m ((c : Thread nD τ).loc main_arg0)) (m ((c : Thread nD τ).loc main_arg2)) (m ((c : Thread nD τ).loc main_arg3)) r k := by
  rw [V_v23_eq]
  have hk := k.isLt
  have hr := r.isLt
  have hk3 : k.val / 3 < 4096 := by omega
  have hkm : k.val % 3 < 3 := by omega
  unfold Cert.Spec.sel
  by_cases h : r.val < 18
  · rw [dif_pos h, selT_left _ _ r k ⟨r.val, h⟩ rfl,
      bT_apply _ _ ⟨k.val / 3, hk3⟩ ⟨k.val % 3, hkm⟩ ⟨r.val / 6, by omega⟩ ⟨r.val % 6, by omega⟩ k ⟨r.val, h⟩
        (by show k.val = 3 * (k.val / 3) + k.val % 3; omega) (by show r.val = 6 * (r.val / 6) + r.val % 6; omega),
      featT_apply, eyeT_apply]
  · rw [dif_neg h, selT_right _ _ r k ⟨r.val - 18, by omega⟩ (by show r.val - 18 + 18 = r.val; omega),
      cT_apply _ ⟨k.val / 3, hk3⟩ ⟨k.val % 3, hkm⟩ ⟨r.val - 17, by omega⟩ k ⟨r.val - 18, by omega⟩
        (by show k.val = 3 * (k.val / 3) + k.val % 3; omega) (by show r.val - 17 = r.val - 18 + 1; omega),
      eyeT_apply]

end Cert.KernelIdeal.Prelude

end
-- ==== Proof.KernelValue.lean ====
/-
  The kernel's two result arrays as the specification's functions of the arguments. The grid has 16 points; point `t`
  stages rows `256 t … 256 t + 255` of the flattened adjacency (a reshape of the adjacency argument made before the
  call), the whole selector (also built before the call), the weights whole and each bias as one row, and writes back
  rows `256 t … 256 t + 255` of each result. So what point `t` writes back is block `t` of the specification's array
  (row `r` of the block is row `256 t + r`), the 16 blocks cover every row, and each result array ends as the
  specification's function of the argument arrays.
-/
import proofs.«111064_j25305947308075_2_alg».proof.Proof.Gen.KernelIdeal.Value
import proofs.«111064_j25305947308075_2_alg».proof.Proof.KernelBlock
import proofs.«111064_j25305947308075_2_alg».proof.Proof.Prelude

noncomputable section

namespace Cert.KernelIdeal.Final

open Cert.KernelIdeal Cert.KernelIdeal.Gen Cert.KernelIdeal.Out Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first result as the specification's function of the arguments in memory. -/
abbrev R10 (c : Dev nD) : S4096x18.Idx → EReal := Cert.Spec.G10 (m ((c : Thread nD τ).loc main_arg1)) (m ((c : Thread nD τ).loc main_arg0)) (m ((c : Thread nD τ).loc main_arg2)) (m ((c : Thread nD τ).loc main_arg3))

/-- The second result as the specification's function of the arguments in memory. -/
abbrev R11 (c : Dev nD) : S4096x2.Idx → EReal :=
  Cert.Spec.G11 (m ((c : Thread nD τ).loc main_arg1)) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- The printed index maps over the 16 points: the adjacency block and the two result blocks move with the point along
    the rows; every other window stays at the origin. -/
theorem idx_facts : ∀ t : Fin cfg0.N,
    win0_0.index t (0 : Fin 2) = t.val ∧ win0_0.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- A point's number is below 16. -/
theorem point_lt (t : Fin cfg0.N) : t.val < 16 := lt_of_lt_of_eq t.isLt N_0

/-! ## The staged blocks -/

/-- Row `r` of the adjacency block at point `t` is row `256 t + r` of the flattened adjacency. -/
theorem iblk0_apply (c : Dev nD) (t : Fin cfg0.N) (r : Fin 256) (k : Fin 12288) (i : Fin 4096) (hi : i.val = t.val * 256 + r.val) :
    (iblk m c 0 t : S256x12288.Idx → EReal) (ix2 r k) = Cert.Spec.aflat (m ((c : Thread nD τ).loc main_arg1)) i k := by
  rw [← Cert.KernelIdeal.Prelude.V_aflat m c i k]
  show V m c main_v24 (((cfg0.win 0).blk t).view.emb (ix2 r k)) = V m c main_v24 (ix2 i k)
  refine congrArg (V m c main_v24) (funext fun a => Fin.ext ?_)
  have e := idx_facts t
  match a with
  | ⟨0, _⟩ => show win0_0.index t (0 : Fin 2) * 256 + 1 * r.val = i.val; omega
  | ⟨1, _⟩ => show win0_0.index t (1 : Fin 2) * 12288 + 1 * k.val = k.val; omega

/-- The selector block at every point is the selector. -/
theorem iblk1_apply (c : Dev nD) (t : Fin cfg0.N) (n : Fin 20) (k : Fin 12288) :
    (iblk m c 1 t : S20x12288.Idx → EReal) (ix2 n k)
      = Cert.Spec.sel (m ((c : Thread nD τ).loc main_arg0)) (m ((c : Thread nD τ).loc main_arg2)) (m ((c : Thread nD τ).loc main_arg3)) n k := by
  rw [← Cert.KernelIdeal.Prelude.V_sel m c n k]
  show V m c main_v23 (((cfg0.win 1).blk t).view.emb (ix2 n k)) = V m c main_v23 (ix2 n k)
  refine congrArg (V m c main_v23) (funext fun a => Fin.ext ?_)
  have e := idx_facts t
  match a with
  | ⟨0, _⟩ => show win0_1.index t (0 : Fin 2) * 20 + 1 * n.val = n.val; omega
  | ⟨1, _⟩ => show win0_1.index t (1 : Fin 2) * 12288 + 1 * k.val = k.val; omega

/-- Window 2 stages its whole array at every point: its block is the argument itself. -/
theorem iblk2_eq (c : Dev nD) (t : Fin cfg0.N) :
    (iblk m c 2 t : S18x256.Idx → EReal) = (m ((c : Thread nD τ).loc main_arg4)) := by
  funext y
  show V m c main_arg4 (((cfg0.win 2).blk t).view.emb y) = _
  rw [V_main_arg4]
  refine congrArg (m ((c : Thread nD τ).loc main_arg4)) (funext fun a => Fin.ext ?_)
  have e := idx_facts t
  match a with
  | ⟨0, _⟩ => show win0_2.index t (0 : Fin 2) * 18 + 1 * (y 0).val = (y 0).val; omega
  | ⟨1, _⟩ => show win0_2.index t (1 : Fin 2) * 256 + 1 * (y 1).val = (y 1).val; omega

/-- Window 4 stages its whole array at every point: its block is the argument itself. -/
theorem iblk4_eq (c : Dev nD) (t : Fin cfg0.N) :
    (iblk m c 4 t : S256x256.Idx → EReal) = (m ((c : Thread nD τ).loc main_arg6)) := by
  funext y
  show V m c main_arg6 (((cfg0.win 4).blk t).view.emb y) = _
  rw [V_main_arg6]
  refine congrArg (m ((c : Thread nD τ).loc main_arg6)) (funext fun a => Fin.ext ?_)
  have e := idx_facts t
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- Window 6 stages its whole array at every point: its block is the argument itself. -/
theorem iblk6_eq (c : Dev nD) (t : Fin cfg0.N) :
    (iblk m c 6 t : S256x256.Idx → EReal) = (m ((c : Thread nD τ).loc main_arg8)) := by
  funext y
  show V m c main_arg8 (((cfg0.win 6).blk t).view.emb y) = _
  rw [V_main_arg8]
  refine congrArg (m ((c : Thread nD τ).loc main_arg8)) (funext fun a => Fin.ext ?_)
  have e := idx_facts t
  match a with
  | ⟨0, _⟩ => show win0_6.index t (0 : Fin 2) * 256 + 1 * (y 0).val = (y 0).val; omega
  | ⟨1, _⟩ => show win0_6.index t (1 : Fin 2) * 256 + 1 * (y 1).val = (y 1).val; omega

/-- Window 8 stages its whole array at every point: its block is the argument itself. -/
theorem iblk8_eq (c : Dev nD) (t : Fin cfg0.N) :
    (iblk m c 8 t : S256x2.Idx → EReal) = (m ((c : Thread nD τ).loc main_arg10)) := by
  funext y
  show V m c main_arg10 (((cfg0.win 8).blk t).view.emb y) = _
  rw [V_main_arg10]
  refine congrArg (m ((c : Thread nD τ).loc main_arg10)) (funext fun a => Fin.ext ?_)
  have e := idx_facts t
  match a with
  | ⟨0, _⟩ => show win0_8.index t (0 : Fin 2) * 256 + 1 * (y 0).val = (y 0).val; omega
  | ⟨1, _⟩ => show win0_8.index t (1 : Fin 2) * 2 + 1 * (y 1).val = (y 1).val; omega

/-- Window 3 stages the bias as one row: its block's row is the bias vector. -/
theorem iblk3_apply (c : Dev nD) (t : Fin cfg0.N) (n : Fin 256) :
    (iblk m c 3 t : S1x256.Idx → EReal) (ix2 (0 : Fin 1) n) = (m ((c : Thread nD τ).loc main_arg5)) (ix1 n) := by
  rw [← Cert.KernelIdeal.Prelude.V_b0 m c n]
  show V m c main_v25 (((cfg0.win 3).blk t).view.emb (ix2 (0 : Fin 1) n)) = V m c main_v25 (ix2 (0 : Fin 1) n)
  refine congrArg (V m c main_v25) (funext fun a => Fin.ext ?_)
  have e := idx_facts t
  match a with
  | ⟨0, _⟩ => show win0_3.index t (0 : Fin 2) * 1 + 1 * 0 = 0; omega
  | ⟨1, _⟩ => show win0_3.index t (1 : Fin 2) * 256 + 1 * n.val = n.val; omega

/-- Window 5 stages the bias as one row: its block's row is the bias vector. -/
theorem iblk5_apply (c : Dev nD) (t : Fin cfg0.N) (n : Fin 256) :
    (iblk m c 5 t : S1x256.Idx → EReal) (ix2 (0 : Fin 1) n) = (m ((c : Thread nD τ).loc main_arg7)) (ix1 n) := by
  rw [← Cert.KernelIdeal.Prelude.V_b1 m c n]
  show V m c main_v26 (((cfg0.win 5).blk t).view.emb (ix2 (0 : Fin 1) n)) = V m c main_v26 (ix2 (0 : Fin 1) n)
  refine congrArg (V m c main_v26) (funext fun a => Fin.ext ?_)
  have e := idx_facts t
  match a with
  | ⟨0, _⟩ => show win0_5.index t (0 : Fin 2) * 1 + 1 * 0 = 0; omega
  | ⟨1, _⟩ => show win0_5.index t (1 : Fin 2) * 256 + 1 * n.val = n.val; omega

/-- Window 7 stages the bias as one row: its block's row is the bias vector. -/
theorem iblk7_apply (c : Dev nD) (t : Fin cfg0.N) (n : Fin 256) :
    (iblk m c 7 t : S1x256.Idx → EReal) (ix2 (0 : Fin 1) n) = (m ((c : Thread nD τ).loc main_arg9)) (ix1 n) := by
  rw [← Cert.KernelIdeal.Prelude.V_b2 m c n]
  show V m c main_v27 (((cfg0.win 7).blk t).view.emb (ix2 (0 : Fin 1) n)) = V m c main_v27 (ix2 (0 : Fin 1) n)
  refine congrArg (V m c main_v27) (funext fun a => Fin.ext ?_)
  have e := idx_facts t
  match a with
  | ⟨0, _⟩ => show win0_7.index t (0 : Fin 2) * 1 + 1 * 0 = 0; omega
  | ⟨1, _⟩ => show win0_7.index t (1 : Fin 2) * 256 + 1 * n.val = n.val; omega

/-- Window 9 stages the bias as one row: its block's row is the bias vector. -/
theorem iblk9_apply (c : Dev nD) (t : Fin cfg0.N) (n : Fin 2) :
    (iblk m c 9 t : S1x2.Idx → EReal) (ix2 (0 : Fin 1) n) = (m ((c : Thread nD τ).loc main_arg11)) (ix1 n) := by
  rw [← Cert.KernelIdeal.Prelude.V_bp m c n]
  show V m c main_v28 (((cfg0.win 9).blk t).view.emb (ix2 (0 : Fin 1) n)) = V m c main_v28 (ix2 (0 : Fin 1) n)
  refine congrArg (V m c main_v28) (funext fun a => Fin.ext ?_)
  have e := idx_facts t
  match a with
  | ⟨0, _⟩ => show win0_9.index t (0 : Fin 2) * 1 + 1 * 0 = 0; omega
  | ⟨1, _⟩ => show win0_9.index t (1 : Fin 2) * 2 + 1 * n.val = n.val; omega

/-! ## What each point writes back -/

/-- What point `t` writes back to the first result is block `t` of the specification's array. -/
theorem flushed10_eq (c : Dev nD) (t : Fin cfg0.N) :
    (dats m 0 c).flushed 10 t = ((cfg0.win 10).blk t).view.read (Elt Ideal) (R10 m c) := by
  rw [Cert.KernelIdeal.Value.flushed10_A, out10_eq]
  have e := idx_facts t
  have ht := point_lt t
  funext y
  revert y
  show ∀ y : S256x18.Idx, _ = _
  intro y
  obtain ⟨r, col, rfl⟩ : ∃ (r : Fin 256) (col : Fin 18), y = ix2 r col := ⟨y 0, y 1, eq_ix2 y⟩
  have hi : t.val * 256 + r.val < 4096 := by have := r.isLt; omega
  show k0_pay3 (F := Ideal) (acc3 (iblk m c 0 t) (iblk m c 1 t)) (chunkA (iblk m c 0 t) 9216 (by decide)) (chunkM (iblk m c 1 t) 9216 (by decide))
      (ix2 r col) = R10 m c (((cfg0.win 10).blk t).view.emb (ix2 r col))
  refine (Cert.KernelIdeal.Block.agg_block (m ((c : Thread nD τ).loc main_arg1)) (m ((c : Thread nD τ).loc main_arg0)) (m ((c : Thread nD τ).loc main_arg2)) (m ((c : Thread nD τ).loc main_arg3))
    (iblk m c 0 t) (iblk m c 1 t) ⟨t.val * 256 + r.val, hi⟩ r (fun k => iblk0_apply m c t r k ⟨t.val * 256 + r.val, hi⟩ rfl)
    (fun n k => iblk1_apply m c t n k) col).trans ?_
  have h0 : (((cfg0.win 10).blk t).view.emb (ix2 r col)) 0 = (⟨t.val * 256 + r.val, hi⟩ : Fin 4096) :=
    Fin.ext (by show win0_10.index t (0 : Fin 2) * 256 + 1 * r.val = t.val * 256 + r.val; omega)
  have h1 : (((cfg0.win 10).blk t).view.emb (ix2 r col)) 1 = col :=
    Fin.ext (by show win0_10.index t (1 : Fin 2) * 18 + 1 * col.val = col.val; omega)
  show _ = Cert.Spec.aggRow (m ((c : Thread nD τ).loc main_arg1)) (m ((c : Thread nD τ).loc main_arg0)) (m ((c : Thread nD τ).loc main_arg2)) (m ((c : Thread nD τ).loc main_arg3)) ((((cfg0.win 10).blk t).view.emb (ix2 r col)) 0) ((((cfg0.win 10).blk t).view.emb (ix2 r col)) 1)
  rw [h0, h1]

/-- What point `t` writes back to the second result is block `t` of the specification's array. -/
theorem flushed11_eq (c : Dev nD) (t : Fin cfg0.N) :
    (dats m 0 c).flushed 11 t = ((cfg0.win 11).blk t).view.read (Elt Ideal) (R11 m c) := by
  rw [Cert.KernelIdeal.Value.flushed11_A, out11_eq]
  have e := idx_facts t
  have ht := point_lt t
  funext y
  revert y
  show ∀ y : S256x2.Idx, _ = _
  intro y
  obtain ⟨r, o, rfl⟩ : ∃ (r : Fin 256) (o : Fin 2), y = ix2 r o := ⟨y 0, y 1, eq_ix2 y⟩
  have hi : t.val * 256 + r.val < 4096 := by have := r.isLt; omega
  show k0_pay1 (F := Ideal) (k0_pay4 (F := Ideal) (acc3 (iblk m c 0 t) (iblk m c 1 t)) (chunkA (iblk m c 0 t) 9216 (by decide))
      (chunkM (iblk m c 1 t) 9216 (by decide)) (iblk m c 2 t) (iblk m c 3 t) (iblk m c 4 t) (iblk m c 5 t))
      (iblk m c 6 t) (iblk m c 7 t) (iblk m c 8 t) (iblk m c 9 t) (ix2 r o) = R11 m c (((cfg0.win 11).blk t).view.emb (ix2 r o))
  refine (Cert.KernelIdeal.Block.mlp_block (m ((c : Thread nD τ).loc main_arg1)) (m ((c : Thread nD τ).loc main_arg0)) (m ((c : Thread nD τ).loc main_arg2)) (m ((c : Thread nD τ).loc main_arg3))
    (iblk m c 0 t) (iblk m c 1 t) ⟨t.val * 256 + r.val, hi⟩ r (fun k => iblk0_apply m c t r k ⟨t.val * 256 + r.val, hi⟩ rfl)
    (fun n k => iblk1_apply m c t n k)
    (iblk m c 2 t) (iblk m c 3 t) (iblk m c 4 t) (iblk m c 5 t) (iblk m c 6 t) (iblk m c 7 t) (iblk m c 8 t) (iblk m c 9 t)
    (m ((c : Thread nD τ).loc main_arg5)) (m ((c : Thread nD τ).loc main_arg7)) (m ((c : Thread nD τ).loc main_arg9)) (m ((c : Thread nD τ).loc main_arg11))
    (iblk3_apply m c t) (iblk5_apply m c t) (iblk7_apply m c t) (iblk9_apply m c t) o).trans ?_
  rw [iblk2_eq, iblk4_eq, iblk6_eq, iblk8_eq]
  have h0 : (((cfg0.win 11).blk t).view.emb (ix2 r o)) 0 = (⟨t.val * 256 + r.val, hi⟩ : Fin 4096) :=
    Fin.ext (by show win0_11.index t (0 : Fin 2) * 256 + 1 * r.val = t.val * 256 + r.val; omega)
  have h1 : (((cfg0.win 11).blk t).view.emb (ix2 r o)) 1 = o :=
    Fin.ext (by show win0_11.index t (1 : Fin 2) * 2 + 1 * o.val = o.val; omega)
  show _ = Cert.Spec.mlpRow (Cert.Spec.aggRow (m ((c : Thread nD τ).loc main_arg1)) (m ((c : Thread nD τ).loc main_arg0)) (m ((c : Thread nD τ).loc main_arg2)) (m ((c : Thread nD τ).loc main_arg3)) ((((cfg0.win 11).blk t).view.emb (ix2 r o)) 0))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) ((((cfg0.win 11).blk t).view.emb (ix2 r o)) 1)
  rw [h0, h1]

/-! ## The blocks cover the arrays -/

/-- An index of the first result is in point `t`'s block iff each coordinate is in the block's range on its axis. -/
theorem mem_blk10 (t : Fin cfg0.N) (i : S4096x18.Idx) :
    i ∈ ((cfg0.win 10).blk t).view.set ↔ ∀ a : Fin 2, win0_10.index t a * S256x18.size a ≤ (i a).val
      ∧ (i a).val < win0_10.index t a * S256x18.size a + S256x18.size a := by
  show i ∈ ((View.whole main_v29_0).slice (win0_10.rect t)).set ↔ _
  rw [View.set_slice_whole, Rect.mem_set_unit]
  exact Iff.rfl

/-- The same for the second result. -/
theorem mem_blk11 (t : Fin cfg0.N) (i : S4096x2.Idx) :
    i ∈ ((cfg0.win 11).blk t).view.set ↔ ∀ a : Fin 2, win0_11.index t a * S256x2.size a ≤ (i a).val
      ∧ (i a).val < win0_11.index t a * S256x2.size a + S256x2.size a := by
  show i ∈ ((View.whole main_v29_1).slice (win0_11.rect t)).set ↔ _
  rw [View.set_slice_whole, Rect.mem_set_unit]
  exact Iff.rfl

/-- Row `i` of the first result lies in the block of point `i / 256`. -/
theorem cover10 (i : S4096x18.Idx) : ∃ t : Fin cfg0.N, (cfg0.win 10).flush t = true ∧ i ∈ ((cfg0.win 10).blk t).view.set := by
  have hi0 : (i 0).val < 4096 := (i 0).isLt
  have hi1 : (i 1).val < 18 := (i 1).isLt
  have hq : (i 0).val / 256 < cfg0.N := lt_of_lt_of_eq (by omega : (i 0).val / 256 < 16) N_0.symm
  refine ⟨⟨(i 0).val / 256, hq⟩, flush0_10 _, ?_⟩
  rw [mem_blk10]
  have e := idx_facts ⟨(i 0).val / 256, hq⟩
  intro a
  match a with
  | ⟨0, _⟩ =>
    show win0_10.index ⟨(i 0).val / 256, hq⟩ (0 : Fin 2) * 256 ≤ (i 0).val
      ∧ (i 0).val < win0_10.index ⟨(i 0).val / 256, hq⟩ (0 : Fin 2) * 256 + 256
    have e0 : win0_10.index ⟨(i 0).val / 256, hq⟩ (0 : Fin 2) = (i 0).val / 256 := e.2.2.1
    omega
  | ⟨1, _⟩ =>
    show win0_10.index ⟨(i 0).val / 256, hq⟩ (1 : Fin 2) * 18 ≤ (i 1).val
      ∧ (i 1).val < win0_10.index ⟨(i 0).val / 256, hq⟩ (1 : Fin 2) * 18 + 18
    have e1 : win0_10.index ⟨(i 0).val / 256, hq⟩ (1 : Fin 2) = 0 := e.2.2.2.1
    omega

/-- Row `i` of the second result lies in the block of point `i / 256`. -/
theorem cover11 (i : S4096x2.Idx) : ∃ t : Fin cfg0.N, (cfg0.win 11).flush t = true ∧ i ∈ ((cfg0.win 11).blk t).view.set := by
  have hi0 : (i 0).val < 4096 := (i 0).isLt
  have hi1 : (i 1).val < 2 := (i 1).isLt
  have hq : (i 0).val / 256 < cfg0.N := lt_of_lt_of_eq (by omega : (i 0).val / 256 < 16) N_0.symm
  refine ⟨⟨(i 0).val / 256, hq⟩, flush0_11 _, ?_⟩
  rw [mem_blk11]
  have e := idx_facts ⟨(i 0).val / 256, hq⟩
  intro a
  match a with
  | ⟨0, _⟩ =>
    show win0_11.index ⟨(i 0).val / 256, hq⟩ (0 : Fin 2) * 256 ≤ (i 0).val
      ∧ (i 0).val < win0_11.index ⟨(i 0).val / 256, hq⟩ (0 : Fin 2) * 256 + 256
    have e0 : win0_11.index ⟨(i 0).val / 256, hq⟩ (0 : Fin 2) = (i 0).val / 256 := e.2.2.2.2.1
    omega
  | ⟨1, _⟩ =>
    show win0_11.index ⟨(i 0).val / 256, hq⟩ (1 : Fin 2) * 2 ≤ (i 1).val
      ∧ (i 1).val < win0_11.index ⟨(i 0).val / 256, hq⟩ (1 : Fin 2) * 2 + 2
    have e1 : win0_11.index ⟨(i 0).val / 256, hq⟩ (1 : Fin 2) = 0 := e.2.2.2.2.2.1
    omega

/-! ## The arrays after the run -/

/-- The first result array after the run is the specification's. -/
theorem final10 (c : Dev nD) : (dats m 0 c).arrAt 10 cfg0.N = R10 m c :=
  (dats m 0 c).arrAt_eq_of_cover 10 (R10 m c) (fun t _ => flushed10_eq m c t) cover10

/-- The second result array after the run is the specification's. -/
theorem final11 (c : Dev nD) : (dats m 0 c).arrAt 11 cfg0.N = R11 m c :=
  (dats m 0 c).arrAt_eq_of_cover 11 (R11 m c) (fun t _ => flushed11_eq m c t) cover11

/-- The kernel's run: every weakly fair execution ends with each result array at the specification's function of the
    arguments, and the arguments unchanged. -/
theorem run : θ_run defs (onTc (τ := τ) (main (F := Ideal))) ⟨m, fun _ => 0, ρ⟩ fun r => ∀ c : Dev nD,
      r.2.mem ((c : Thread nD τ).loc main_v29_0) = R10 m c
      ∧ r.2.mem ((c : Thread nD τ).loc main_v29_1) = R11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final10 m c), (h c).2.1.trans (final11 m c), (h c).2.2⟩)
    (Cert.KernelIdeal.Value.run_blocks m ρ)

end Cert.KernelIdeal.Final

end
-- ==== Proof.RefValue.lean ====
/-
  The reference program's two results as the specification's functions of its arguments, at the extended reals.

  The reference builds the aggregated features in three rounds. Round t slices step t of the adjacency and of the
  observations, forms the features of every agent (an affine layer), multiplies the adjacency slice into them (the
  message), sums the adjacency rows, and joins the message with the first twelve columns of the previous round's
  result scaled by the row sums. Unwinding the three joins column by column gives
      msg 2 | msg 1 · rowsum 2 | (msg 0 · rowsum 1) · rowsum 2,
  the all-zero start array being dropped by the third join. The second result applies four affine layers, the first
  three followed by a maximum with zero, to each aggregated row.
-/
import proofs.«111064_j25305947308075_2_alg».proof.Proof.Gen.ReferenceIdeal.Read
import proofs.«111064_j25305947308075_2_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- An array of extended reals over a shape, as the reference's stages are typed. -/
abbrev A (s : Shape) : Type := (⟨s, .f32⟩ : BufTy).Contents (Elt Ideal)

/-! ## The features of every agent at each step -/

/-- Step 0: the affine layer of the observations' slice at step 0. -/
theorem feat0 (x0 : A S4096x3x36) (x2 : A S36x6) (x3 : A S6) (j : Fin 4096) (v : Fin 6) :
    val_main_v8 (F := Ideal) x0 x2 x3 (ix2 j v) = Cert.Spec.feat x0 x2 x3 j 0 v := by
  show val_main_v5 (F := Ideal) x0 x2 (ix2 j v) + val_main_v7 (F := Ideal) x3 (ix2 j v) = _
  rw [val_main_v5_apply, val_main_v7_apply, val_main_v6_apply]
  unfold Cert.Spec.feat
  have eb : idx_main_v6 (idx_main_v7 (ix2 j v)) = ix1 v :=
    funext fun a => Fin.ext (by match a with | ⟨0, _⟩ => rfl)
  rw [eb]
  refine congrArg (· + x3 (ix1 v)) (Finset.sum_congr rfl fun k _ => ?_)
  rw [val_main_v4_apply, val_main_v3_apply]
  have e1 : idx_main_v3 (idx_main_v4 (lidx_main_v5 (ix2 j v) k)) = ix3 j 0 k := funext fun a => Fin.ext (by
    have hj := j.isLt; have hk := k.isLt
    match a with
    | ⟨0, _⟩ => show (j.val * 36 + k.val) / 36 = j.val; omega
    | ⟨1, _⟩ => rfl
    | ⟨2, _⟩ => show (j.val * 36 + k.val) % 36 = k.val; omega)
  have e2 : ridx_main_v5 (ix2 j v) k = ix2 k v :=
    funext fun a => Fin.ext (by match a with | ⟨0, _⟩ => rfl | ⟨1, _⟩ => rfl)
  rw [e1, e2]

/-- Step 1: the affine layer of the observations' slice at step 1. -/
theorem feat1 (x0 : A S4096x3x36) (x2 : A S36x6) (x3 : A S6) (j : Fin 4096) (v : Fin 6) :
    val_main_v23 (F := Ideal) x0 x2 x3 (ix2 j v) = Cert.Spec.feat x0 x2 x3 j 1 v := by
  show val_main_v20 (F := Ideal) x0 x2 (ix2 j v) + val_main_v22 (F := Ideal) x3 (ix2 j v) = _
  rw [val_main_v20_apply, val_main_v22_apply, val_main_v21_apply]
  unfold Cert.Spec.feat
  have eb : idx_main_v21 (idx_main_v22 (ix2 j v)) = ix1 v :=
    funext fun a => Fin.ext (by match a with | ⟨0, _⟩ => rfl)
  rw [eb]
  refine congrArg (· + x3 (ix1 v)) (Finset.sum_congr rfl fun k _ => ?_)
  rw [val_main_v19_apply, val_main_v18_apply]
  have e1 : idx_main_v18 (idx_main_v19 (lidx_main_v20 (ix2 j v) k)) = ix3 j 1 k := funext fun a => Fin.ext (by
    have hj := j.isLt; have hk := k.isLt
    match a with
    | ⟨0, _⟩ => show (j.val * 36 + k.val) / 36 = j.val; omega
    | ⟨1, _⟩ => rfl
    | ⟨2, _⟩ => show (j.val * 36 + k.val) % 36 = k.val; omega)
  have e2 : ridx_main_v20 (ix2 j v) k = ix2 k v :=
    funext fun a => Fin.ext (by match a with | ⟨0, _⟩ => rfl | ⟨1, _⟩ => rfl)
  rw [e1, e2]

/-- Step 2: the affine layer of the observations' slice at step 2. -/
theorem feat2 (x0 : A S4096x3x36) (x2 : A S36x6) (x3 : A S6) (j : Fin 4096) (v : Fin 6) :
    val_main_v38 (F := Ideal) x0 x2 x3 (ix2 j v) = Cert.Spec.feat x0 x2 x3 j 2 v := by
  show val_main_v35 (F := Ideal) x0 x2 (ix2 j v) + val_main_v37 (F := Ideal) x3 (ix2 j v) = _
  rw [val_main_v35_apply, val_main_v37_apply, val_main_v36_apply]
  unfold Cert.Spec.feat
  have eb : idx_main_v36 (idx_main_v37 (ix2 j v)) = ix1 v :=
    funext fun a => Fin.ext (by match a with | ⟨0, _⟩ => rfl)
  rw [eb]
  refine congrArg (· + x3 (ix1 v)) (Finset.sum_congr rfl fun k _ => ?_)
  rw [val_main_v34_apply, val_main_v33_apply]
  have e1 : idx_main_v33 (idx_main_v34 (lidx_main_v35 (ix2 j v) k)) = ix3 j 2 k := funext fun a => Fin.ext (by
    have hj := j.isLt; have hk := k.isLt
    match a with
    | ⟨0, _⟩ => show (j.val * 36 + k.val) / 36 = j.val; omega
    | ⟨1, _⟩ => rfl
    | ⟨2, _⟩ => show (j.val * 36 + k.val) % 36 = k.val; omega)
  have e2 : ridx_main_v35 (ix2 j v) k = ix2 k v :=
    funext fun a => Fin.ext (by match a with | ⟨0, _⟩ => rfl | ⟨1, _⟩ => rfl)
  rw [e1, e2]

/-! ## The adjacency slices, the messages and the row sums -/

/-- Step 0's adjacency slice, as a matrix. -/
theorem adj0 (x1 : A S4096x4096x3) (i j : Fin 4096) :
    val_main_v2 (F := Ideal) x1 (ix2 i j) = x1 (ix3 i j 0) := by
  rw [val_main_v2_apply, val_main_v1_apply]
  refine congrArg x1 (funext fun a => Fin.ext (by
    have hi := i.isLt; have hj := j.isLt
    match a with
    | ⟨0, _⟩ => show (i.val * 4096 + j.val) / 4096 = i.val; omega
    | ⟨1, _⟩ => show (i.val * 4096 + j.val) / 1 % 4096 = j.val; omega
    | ⟨2, _⟩ => rfl))

/-- Step 0's message: the adjacency slice against the features. -/
theorem msg0 (x0 : A S4096x3x36) (x1 : A S4096x4096x3) (x2 : A S36x6) (x3 : A S6) (i : Fin 4096) (v : Fin 6) :
    val_main_v9 (F := Ideal) x0 x1 x2 x3 (ix2 i v) = Cert.Spec.msg x1 x0 x2 x3 0 i v := by
  rw [val_main_v9_apply]
  unfold Cert.Spec.msg
  refine Finset.sum_congr rfl fun k _ => ?_
  have el : lidx_main_v9 (ix2 i v) k = ix2 i k :=
    funext fun a => Fin.ext (by match a with | ⟨0, _⟩ => rfl | ⟨1, _⟩ => rfl)
  have er : ridx_main_v9 (ix2 i v) k = ix2 k v :=
    funext fun a => Fin.ext (by match a with | ⟨0, _⟩ => rfl | ⟨1, _⟩ => rfl)
  rw [el, er, adj0, feat0]

/-- Step 0's row sums: the float sum starts from the zero word, which is the real zero. -/
theorem rowsum0 (x1 : A S4096x4096x3) (i : Fin 4096) :
    val_main_v11 (F := Ideal) x1 (ix1 i) = Cert.Spec.rowsum x1 0 i := by
  rw [val_main_v11_apply]
  have hz : val_main_cst_0 (F := Ideal) (Shape.Idx.first h_S_) = (0 : EReal) := Ideal.ofBits_zero_f32
  rw [hz, zero_add]
  unfold Cert.Spec.rowsum
  refine Finset.sum_congr rfl fun k _ => ?_
  have e : idx_main_v11 (ix1 i) k = ix2 i k :=
    funext fun a => Fin.ext (by match a with | ⟨0, _⟩ => rfl | ⟨1, _⟩ => rfl)
  rw [e, adj0]

/-- Step 0's row sums, spread over twelve columns. -/
theorem rowsumB0 (x1 : A S4096x4096x3) (i : Fin 4096) (c : Fin 12) :
    val_main_v13 (F := Ideal) x1 (ix2 i c) = Cert.Spec.rowsum x1 0 i := by
  rw [val_main_v13_apply, val_main_v12_apply]
  have e : idx_main_v12 (idx_main_v13 (ix2 i c)) = ix1 i :=
    funext fun a => Fin.ext (by match a with | ⟨0, _⟩ => rfl)
  rw [e, rowsum0]

/-- Step 1's adjacency slice, as a matrix. -/
theorem adj1 (x1 : A S4096x4096x3) (i j : Fin 4096) :
    val_main_v17 (F := Ideal) x1 (ix2 i j) = x1 (ix3 i j 1) := by
  rw [val_main_v17_apply, val_main_v16_apply]
  refine congrArg x1 (funext fun a => Fin.ext (by
    have hi := i.isLt; have hj := j.isLt
    match a with
    | ⟨0, _⟩ => show (i.val * 4096 + j.val) / 4096 = i.val; omega
    | ⟨1, _⟩ => show (i.val * 4096 + j.val) / 1 % 4096 = j.val; omega
    | ⟨2, _⟩ => rfl))

/-- Step 1's message: the adjacency slice against the features. -/
theorem msg1 (x0 : A S4096x3x36) (x1 : A S4096x4096x3) (x2 : A S36x6) (x3 : A S6) (i : Fin 4096) (v : Fin 6) :
    val_main_v24 (F := Ideal) x0 x1 x2 x3 (ix2 i v) = Cert.Spec.msg x1 x0 x2 x3 1 i v := by
  rw [val_main_v24_apply]
  unfold Cert.Spec.msg
  refine Finset.sum_congr rfl fun k _ => ?_
  have el : lidx_main_v24 (ix2 i v) k = ix2 i k :=
    funext fun a => Fin.ext (by match a with | ⟨0, _⟩ => rfl | ⟨1, _⟩ => rfl)
  have er : ridx_main_v24 (ix2 i v) k = ix2 k v :=
    funext fun a => Fin.ext (by match a with | ⟨0, _⟩ => rfl | ⟨1, _⟩ => rfl)
  rw [el, er, adj1, feat1]

/-- Step 1's row sums: the float sum starts from the zero word, which is the real zero. -/
theorem rowsum1 (x1 : A S4096x4096x3) (i : Fin 4096) :
    val_main_v26 (F := Ideal) x1 (ix1 i) = Cert.Spec.rowsum x1 1 i := by
  rw [val_main_v26_apply]
  have hz : val_main_cst_1 (F := Ideal) (Shape.Idx.first h_S_) = (0 : EReal) := Ideal.ofBits_zero_f32
  rw [hz, zero_add]
  unfold Cert.Spec.rowsum
  refine Finset.sum_congr rfl fun k _ => ?_
  have e : idx_main_v26 (ix1 i) k = ix2 i k :=
    funext fun a => Fin.ext (by match a with | ⟨0, _⟩ => rfl | ⟨1, _⟩ => rfl)
  rw [e, adj1]

/-- Step 1's row sums, spread over twelve columns. -/
theorem rowsumB1 (x1 : A S4096x4096x3) (i : Fin 4096) (c : Fin 12) :
    val_main_v28 (F := Ideal) x1 (ix2 i c) = Cert.Spec.rowsum x1 1 i := by
  rw [val_main_v28_apply, val_main_v27_apply]
  have e : idx_main_v27 (idx_main_v28 (ix2 i c)) = ix1 i :=
    funext fun a => Fin.ext (by match a with | ⟨0, _⟩ => rfl)
  rw [e, rowsum1]

/-- Step 2's adjacency slice, as a matrix. -/
theorem adj2 (x1 : A S4096x4096x3) (i j : Fin 4096) :
    val_main_v32 (F := Ideal) x1 (ix2 i j) = x1 (ix3 i j 2) := by
  rw [val_main_v32_apply, val_main_v31_apply]
  refine congrArg x1 (funext fun a => Fin.ext (by
    have hi := i.isLt; have hj := j.isLt
    match a with
    | ⟨0, _⟩ => show (i.val * 4096 + j.val) / 4096 = i.val; omega
    | ⟨1, _⟩ => show (i.val * 4096 + j.val) / 1 % 4096 = j.val; omega
    | ⟨2, _⟩ => rfl))

/-- Step 2's message: the adjacency slice against the features. -/
theorem msg2 (x0 : A S4096x3x36) (x1 : A S4096x4096x3) (x2 : A S36x6) (x3 : A S6) (i : Fin 4096) (v : Fin 6) :
    val_main_v39 (F := Ideal) x0 x1 x2 x3 (ix2 i v) = Cert.Spec.msg x1 x0 x2 x3 2 i v := by
  rw [val_main_v39_apply]
  unfold Cert.Spec.msg
  refine Finset.sum_congr rfl fun k _ => ?_
  have el : lidx_main_v39 (ix2 i v) k = ix2 i k :=
    funext fun a => Fin.ext (by match a with | ⟨0, _⟩ => rfl | ⟨1, _⟩ => rfl)
  have er : ridx_main_v39 (ix2 i v) k = ix2 k v :=
    funext fun a => Fin.ext (by match a with | ⟨0, _⟩ => rfl | ⟨1, _⟩ => rfl)
  rw [el, er, adj2, feat2]

/-- Step 2's row sums: the float sum starts from the zero word, which is the real zero. -/
theorem rowsum2 (x1 : A S4096x4096x3) (i : Fin 4096) :
    val_main_v41 (F := Ideal) x1 (ix1 i) = Cert.Spec.rowsum x1 2 i := by
  rw [val_main_v41_apply]
  have hz : val_main_cst_2 (F := Ideal) (Shape.Idx.first h_S_) = (0 : EReal) := Ideal.ofBits_zero_f32
  rw [hz, zero_add]
  unfold Cert.Spec.rowsum
  refine Finset.sum_congr rfl fun k _ => ?_
  have e : idx_main_v41 (ix1 i) k = ix2 i k :=
    funext fun a => Fin.ext (by match a with | ⟨0, _⟩ => rfl | ⟨1, _⟩ => rfl)
  rw [e, adj2]

/-- Step 2's row sums, spread over twelve columns. -/
theorem rowsumB2 (x1 : A S4096x4096x3) (i : Fin 4096) (c : Fin 12) :
    val_main_v43 (F := Ideal) x1 (ix2 i c) = Cert.Spec.rowsum x1 2 i := by
  rw [val_main_v43_apply, val_main_v42_apply]
  have e : idx_main_v42 (idx_main_v43 (ix2 i c)) = ix1 i :=
    funext fun a => Fin.ext (by match a with | ⟨0, _⟩ => rfl)
  rw [e, rowsum2]

/-! ## The joins, column by column -/

/-- A join of six and twelve columns, at a column among the first six. -/
theorem cat_left (p : A S4096x6) (q : A S4096x12) (i : Fin 4096) (c : Fin 18) (h : c.val < 6) :
    concatenate S4096x18 1 [⟨S4096x6, p⟩, ⟨S4096x12, q⟩] concatenates_S4096x6_S4096x12_S4096x18_d1 (ix2 i c)
      = p (ix2 i ⟨c.val, h⟩) :=
  concatenate_pair_apply_left 1 p q concatenates_S4096x6_S4096x12_S4096x18_d1 (ix2 i c) rfl (ix2 i ⟨c.val, h⟩)
    (fun b => by match b with | ⟨0, _⟩ => rfl | ⟨1, _⟩ => rfl)

/-- A join of six and twelve columns, at a column past the first six. -/
theorem cat_right (p : A S4096x6) (q : A S4096x12) (i : Fin 4096) (c : Fin 18) (h : 6 ≤ c.val) (h' : c.val - 6 < 12) :
    concatenate S4096x18 1 [⟨S4096x6, p⟩, ⟨S4096x12, q⟩] concatenates_S4096x6_S4096x12_S4096x18_d1 (ix2 i c)
      = q (ix2 i ⟨c.val - 6, h'⟩) :=
  concatenate_pair_apply_right 1 p q concatenates_S4096x6_S4096x12_S4096x18_d1 (ix2 i c) rfl rfl (ix2 i ⟨c.val - 6, h'⟩)
    (fun b hb => by match b, hb with | ⟨0, _⟩, _ => rfl | ⟨1, _⟩, hb => exact absurd rfl hb)
    (by show c.val - 6 + 6 = c.val; omega)

/-- The first join's first six columns are the oldest message. -/
theorem v15_lo (x0 : A S4096x3x36) (x1 : A S4096x4096x3) (x2 : A S36x6) (x3 : A S6) (i : Fin 4096) (c : Fin 18) (h : c.val < 6) :
    val_main_v15 (F := Ideal) x0 x1 x2 x3 (ix2 i c) = Cert.Spec.msg x1 x0 x2 x3 0 i ⟨c.val, h⟩ :=
  (cat_left _ _ i c h).trans (msg0 x0 x1 x2 x3 i ⟨c.val, h⟩)

/-- The second join's tail, at its first six columns: the oldest message scaled by step 1's row sum. -/
theorem tail1 (x0 : A S4096x3x36) (x1 : A S4096x4096x3) (x2 : A S36x6) (x3 : A S6) (i : Fin 4096) (c : Fin 12) (h : c.val < 6) :
    val_main_v29 (F := Ideal) x0 x1 x2 x3 (ix2 i c)
      = Cert.Spec.msg x1 x0 x2 x3 0 i ⟨c.val, h⟩ * Cert.Spec.rowsum x1 1 i := by
  show val_main_v25 (F := Ideal) x0 x1 x2 x3 (ix2 i c) * val_main_v28 (F := Ideal) x1 (ix2 i c) = _
  rw [val_main_v25_apply, rowsumB1]
  have e : idx_main_v25 (ix2 i c) = ix2 i (⟨c.val, by omega⟩ : Fin 18) :=
    funext fun a => Fin.ext (by match a with | ⟨0, _⟩ => rfl | ⟨1, _⟩ => rfl)
  rw [e, v15_lo x0 x1 x2 x3 i ⟨c.val, by omega⟩ h]

/-- The second join's first six columns are the middle message. -/
theorem v30_lo (x0 : A S4096x3x36) (x1 : A S4096x4096x3) (x2 : A S36x6) (x3 : A S6) (i : Fin 4096) (c : Fin 18) (h : c.val < 6) :
    val_main_v30 (F := Ideal) x0 x1 x2 x3 (ix2 i c) = Cert.Spec.msg x1 x0 x2 x3 1 i ⟨c.val, h⟩ :=
  (cat_left _ _ i c h).trans (msg1 x0 x1 x2 x3 i ⟨c.val, h⟩)

/-- The second join's columns six to eleven are the oldest message scaled once. -/
theorem v30_mid (x0 : A S4096x3x36) (x1 : A S4096x4096x3) (x2 : A S36x6) (x3 : A S6) (i : Fin 4096) (c : Fin 18) (h : 6 ≤ c.val) (h' : c.val - 6 < 6) :
    val_main_v30 (F := Ideal) x0 x1 x2 x3 (ix2 i c)
      = Cert.Spec.msg x1 x0 x2 x3 0 i ⟨c.val - 6, h'⟩ * Cert.Spec.rowsum x1 1 i :=
  (cat_right _ _ i c h (by omega)).trans (tail1 x0 x1 x2 x3 i ⟨c.val - 6, by omega⟩ h')

/-- The third join's tail, at its first six columns: the middle message scaled by step 2's row sum. -/
theorem tail2_lo (x0 : A S4096x3x36) (x1 : A S4096x4096x3) (x2 : A S36x6) (x3 : A S6) (i : Fin 4096) (c : Fin 12) (h : c.val < 6) :
    val_main_v44 (F := Ideal) x0 x1 x2 x3 (ix2 i c)
      = Cert.Spec.msg x1 x0 x2 x3 1 i ⟨c.val, h⟩ * Cert.Spec.rowsum x1 2 i := by
  show val_main_v40 (F := Ideal) x0 x1 x2 x3 (ix2 i c) * val_main_v43 (F := Ideal) x1 (ix2 i c) = _
  rw [val_main_v40_apply, rowsumB2]
  have e : idx_main_v40 (ix2 i c) = ix2 i (⟨c.val, by omega⟩ : Fin 18) :=
    funext fun a => Fin.ext (by match a with | ⟨0, _⟩ => rfl | ⟨1, _⟩ => rfl)
  rw [e, v30_lo x0 x1 x2 x3 i ⟨c.val, by omega⟩ h]

/-- The third join's tail, at its last six columns: the oldest message scaled by both row sums. -/
theorem tail2_hi (x0 : A S4096x3x36) (x1 : A S4096x4096x3) (x2 : A S36x6) (x3 : A S6) (i : Fin 4096) (c : Fin 12) (h : 6 ≤ c.val) (h' : c.val - 6 < 6) :
    val_main_v44 (F := Ideal) x0 x1 x2 x3 (ix2 i c)
      = (Cert.Spec.msg x1 x0 x2 x3 0 i ⟨c.val - 6, h'⟩ * Cert.Spec.rowsum x1 1 i) * Cert.Spec.rowsum x1 2 i := by
  show val_main_v40 (F := Ideal) x0 x1 x2 x3 (ix2 i c) * val_main_v43 (F := Ideal) x1 (ix2 i c) = _
  rw [val_main_v40_apply, rowsumB2]
  have e : idx_main_v40 (ix2 i c) = ix2 i (⟨c.val, by omega⟩ : Fin 18) :=
    funext fun a => Fin.ext (by match a with | ⟨0, _⟩ => rfl | ⟨1, _⟩ => rfl)
  rw [e, v30_mid x0 x1 x2 x3 i ⟨c.val, by omega⟩ h h']

/-- The third join at any column is the specification's aggregated row. -/
theorem v45_at (x0 : A S4096x3x36) (x1 : A S4096x4096x3) (x2 : A S36x6) (x3 : A S6) (i : Fin 4096) (c : Fin 18) :
    val_main_v45 (F := Ideal) x0 x1 x2 x3 (ix2 i c) = Cert.Spec.aggRow x1 x0 x2 x3 i c := by
  have hc := c.isLt
  unfold Cert.Spec.aggRow
  by_cases h : c.val < 6
  · rw [dif_pos h]
    exact (cat_left _ _ i c h).trans (msg2 x0 x1 x2 x3 i ⟨c.val, h⟩)
  · rw [dif_neg h]
    by_cases h' : c.val < 12
    · rw [dif_pos h']
      exact (cat_right _ _ i c (by omega) (by omega)).trans
        (tail2_lo x0 x1 x2 x3 i ⟨c.val - 6, by omega⟩ (by show c.val - 6 < 6; omega))
    · rw [dif_neg h']
      have e : (⟨c.val - 6 - 6, by omega⟩ : Fin 6) = ⟨c.val - 12, by omega⟩ := Fin.ext (by show c.val - 6 - 6 = c.val - 12; omega)
      have t : val_main_v45 (F := Ideal) x0 x1 x2 x3 (ix2 i c)
          = (Cert.Spec.msg x1 x0 x2 x3 0 i ⟨c.val - 6 - 6, by omega⟩ * Cert.Spec.rowsum x1 1 i) * Cert.Spec.rowsum x1 2 i :=
        (cat_right _ _ i c (by omega) (by omega)).trans
          (tail2_hi x0 x1 x2 x3 i ⟨c.val - 6, by omega⟩ (by show 6 ≤ c.val - 6; omega) (by show c.val - 6 - 6 < 6; omega))
      rw [e] at t
      exact t

/-- The reference's first result is the specification's. -/
theorem agg_eq (x0 : (⟨Cert.ReferenceIdeal.S4096x3x36, .f32⟩ : BufTy).Contents (Elt Ideal)) (x1 : (⟨S4096x4096x3, .f32⟩ : BufTy).Contents (Elt Ideal))
    (x2 : (⟨S36x6, .f32⟩ : BufTy).Contents (Elt Ideal)) (x3 : (⟨S6, .f32⟩ : BufTy).Contents (Elt Ideal)) :
    Cert.ReferenceIdeal.Read.val_main_v45 (F := Ideal) x0 x1 x2 x3 = Cert.Spec.G10 x1 x0 x2 x3 :=
  funext fun idx => (congrArg (val_main_v45 (F := Ideal) x0 x1 x2 x3) (eq_ix2 idx)).trans (v45_at x0 x1 x2 x3 (idx 0) (idx 1))

/-! ## The perceptron, layer by layer -/

/-- A sum of products plus a bias is the specification's affine layer, once each factor is recognised. -/
theorem dense_intro {K N : ℕ} (row : Fin K → EReal) (W : Cert.Spec.Arr ⟨2, ![K, N]⟩) (b : Cert.Spec.Arr ⟨1, ![N]⟩) (n : Fin N)
    (s : Fin K → EReal) (bb : EReal) (hs : ∀ k, s k = row k * W (ix2 k n)) (hb : bb = b (ix1 n)) :
    (∑ k, s k) + bb = Cert.Spec.dense row W b n := by
  rw [Cert.Spec.dense, hb]
  exact congrArg (· + b (ix1 n)) (Finset.sum_congr rfl fun k _ => hs k)

/-- The first hidden layer before its rectifier: the affine layer of the row before it. -/
theorem h0_at (x0 : A S4096x3x36) (x1 : A S4096x4096x3) (x2 : A S36x6) (x3 : A S6) (x4 : A S18x256) (x5 : A S256) (i : Fin 4096) (n : Fin 256) :
    val_main_v49 (F := Ideal) x0 x1 x2 x3 x4 x5 (ix2 i n)
      = Cert.Spec.dense (Cert.Spec.aggRow x1 x0 x2 x3 i) x4 x5 n := by
  show val_main_v46 (F := Ideal) x0 x1 x2 x3 x4 (ix2 i n) + val_main_v48 (F := Ideal) x5 (ix2 i n) = _
  rw [val_main_v46_apply, val_main_v48_apply, val_main_v47_apply]
  have eb : idx_main_v47 (idx_main_v48 (ix2 i n)) = ix1 n :=
    funext fun a => Fin.ext (by match a with | ⟨0, _⟩ => rfl)
  rw [eb]
  refine dense_intro _ x4 x5 n _ _ (fun k => ?_) rfl
  have el : lidx_main_v46 (ix2 i n) k = ix2 i k :=
    funext fun a => Fin.ext (by match a with | ⟨0, _⟩ => rfl | ⟨1, _⟩ => rfl)
  have er : ridx_main_v46 (ix2 i n) k = ix2 k n :=
    funext fun a => Fin.ext (by match a with | ⟨0, _⟩ => rfl | ⟨1, _⟩ => rfl)
  rw [el, er, v45_at]

/-- The first hidden layer after its rectifier: the maximum with the zero word. -/
theorem r0_at (x0 : A S4096x3x36) (x1 : A S4096x4096x3) (x2 : A S36x6) (x3 : A S6) (x4 : A S18x256) (x5 : A S256) (i : Fin 4096) (n : Fin 256) :
    val_main_v50 (F := Ideal) x0 x1 x2 x3 x4 x5 (ix2 i n)
      = Cert.Spec.relu (Cert.Spec.dense (Cert.Spec.aggRow x1 x0 x2 x3 i) x4 x5 n) := by
  show max (val_main_v49 (F := Ideal) x0 x1 x2 x3 x4 x5 (ix2 i n)) (val_main_call0_v0 (F := Ideal) (ix2 i n)) = _
  rw [h0_at, val_main_call0_v0_apply]
  rfl

/-- The second hidden layer before its rectifier: the affine layer of the row before it. -/
theorem h1_at (x0 : A S4096x3x36) (x1 : A S4096x4096x3) (x2 : A S36x6) (x3 : A S6) (x4 : A S18x256) (x5 : A S256) (x6 : A S256x256) (x7 : A S256) (i : Fin 4096) (n : Fin 256) :
    val_main_v54 (F := Ideal) x0 x1 x2 x3 x4 x5 x6 x7 (ix2 i n)
      = Cert.Spec.dense (fun k0 => Cert.Spec.relu (Cert.Spec.dense (Cert.Spec.aggRow x1 x0 x2 x3 i) x4 x5 k0)) x6 x7 n := by
  show val_main_v51 (F := Ideal) x0 x1 x2 x3 x4 x5 x6 (ix2 i n) + val_main_v53 (F := Ideal) x7 (ix2 i n) = _
  rw [val_main_v51_apply, val_main_v53_apply, val_main_v52_apply]
  have eb : idx_main_v52 (idx_main_v53 (ix2 i n)) = ix1 n :=
    funext fun a => Fin.ext (by match a with | ⟨0, _⟩ => rfl)
  rw [eb]
  refine dense_intro _ x6 x7 n _ _ (fun k => ?_) rfl
  have el : lidx_main_v51 (ix2 i n) k = ix2 i k :=
    funext fun a => Fin.ext (by match a with | ⟨0, _⟩ => rfl | ⟨1, _⟩ => rfl)
  have er : ridx_main_v51 (ix2 i n) k = ix2 k n :=
    funext fun a => Fin.ext (by match a with | ⟨0, _⟩ => rfl | ⟨1, _⟩ => rfl)
  rw [el, er, r0_at]

/-- The second hidden layer after its rectifier: the maximum with the zero word. -/
theorem r1_at (x0 : A S4096x3x36) (x1 : A S4096x4096x3) (x2 : A S36x6) (x3 : A S6) (x4 : A S18x256) (x5 : A S256) (x6 : A S256x256) (x7 : A S256) (i : Fin 4096) (n : Fin 256) :
    val_main_v55 (F := Ideal) x0 x1 x2 x3 x4 x5 x6 x7 (ix2 i n)
      = Cert.Spec.relu (Cert.Spec.dense (fun k0 => Cert.Spec.relu (Cert.Spec.dense (Cert.Spec.aggRow x1 x0 x2 x3 i) x4 x5 k0)) x6 x7 n) := by
  show max (val_main_v54 (F := Ideal) x0 x1 x2 x3 x4 x5 x6 x7 (ix2 i n)) (val_main_call1_v0 (F := Ideal) (ix2 i n)) = _
  rw [h1_at, val_main_call1_v0_apply]
  rfl

/-- The third hidden layer before its rectifier: the affine layer of the row before it. -/
theorem h2_at (x0 : A S4096x3x36) (x1 : A S4096x4096x3) (x2 : A S36x6) (x3 : A S6) (x4 : A S18x256) (x5 : A S256) (x6 : A S256x256) (x7 : A S256) (x8 : A S256x256) (x9 : A S256) (i : Fin 4096) (n : Fin 256) :
    val_main_v59 (F := Ideal) x0 x1 x2 x3 x4 x5 x6 x7 x8 x9 (ix2 i n)
      = Cert.Spec.dense (fun k1 => Cert.Spec.relu (Cert.Spec.dense (fun k0 => Cert.Spec.relu (Cert.Spec.dense (Cert.Spec.aggRow x1 x0 x2 x3 i) x4 x5 k0)) x6 x7 k1)) x8 x9 n := by
  show val_main_v56 (F := Ideal) x0 x1 x2 x3 x4 x5 x6 x7 x8 (ix2 i n) + val_main_v58 (F := Ideal) x9 (ix2 i n) = _
  rw [val_main_v56_apply, val_main_v58_apply, val_main_v57_apply]
  have eb : idx_main_v57 (idx_main_v58 (ix2 i n)) = ix1 n :=
    funext fun a => Fin.ext (by match a with | ⟨0, _⟩ => rfl)
  rw [eb]
  refine dense_intro _ x8 x9 n _ _ (fun k => ?_) rfl
  have el : lidx_main_v56 (ix2 i n) k = ix2 i k :=
    funext fun a => Fin.ext (by match a with | ⟨0, _⟩ => rfl | ⟨1, _⟩ => rfl)
  have er : ridx_main_v56 (ix2 i n) k = ix2 k n :=
    funext fun a => Fin.ext (by match a with | ⟨0, _⟩ => rfl | ⟨1, _⟩ => rfl)
  rw [el, er, r1_at]

/-- The third hidden layer after its rectifier: the maximum with the zero word. -/
theorem r2_at (x0 : A S4096x3x36) (x1 : A S4096x4096x3) (x2 : A S36x6) (x3 : A S6) (x4 : A S18x256) (x5 : A S256) (x6 : A S256x256) (x7 : A S256) (x8 : A S256x256) (x9 : A S256) (i : Fin 4096) (n : Fin 256) :
    val_main_v60 (F := Ideal) x0 x1 x2 x3 x4 x5 x6 x7 x8 x9 (ix2 i n)
      = Cert.Spec.relu (Cert.Spec.dense (fun k1 => Cert.Spec.relu (Cert.Spec.dense (fun k0 => Cert.Spec.relu (Cert.Spec.dense (Cert.Spec.aggRow x1 x0 x2 x3 i) x4 x5 k0)) x6 x7 k1)) x8 x9 n) := by
  show max (val_main_v59 (F := Ideal) x0 x1 x2 x3 x4 x5 x6 x7 x8 x9 (ix2 i n)) (val_main_call2_v0 (F := Ideal) (ix2 i n)) = _
  rw [h2_at, val_main_call2_v0_apply]
  rfl

/-- The output layer: the affine layer of the row before it. -/
theorem h3_at (x0 : A S4096x3x36) (x1 : A S4096x4096x3) (x2 : A S36x6) (x3 : A S6) (x4 : A S18x256) (x5 : A S256) (x6 : A S256x256) (x7 : A S256) (x8 : A S256x256) (x9 : A S256) (x10 : A S256x2) (x11 : A S2) (i : Fin 4096) (n : Fin 2) :
    val_main_v64 (F := Ideal) x0 x1 x2 x3 x4 x5 x6 x7 x8 x9 x10 x11 (ix2 i n)
      = Cert.Spec.dense (fun k2 => Cert.Spec.relu (Cert.Spec.dense (fun k1 => Cert.Spec.relu (Cert.Spec.dense (fun k0 => Cert.Spec.relu (Cert.Spec.dense (Cert.Spec.aggRow x1 x0 x2 x3 i) x4 x5 k0)) x6 x7 k1)) x8 x9 k2)) x10 x11 n := by
  show val_main_v61 (F := Ideal) x0 x1 x2 x3 x4 x5 x6 x7 x8 x9 x10 (ix2 i n) + val_main_v63 (F := Ideal) x11 (ix2 i n) = _
  rw [val_main_v61_apply, val_main_v63_apply, val_main_v62_apply]
  have eb : idx_main_v62 (idx_main_v63 (ix2 i n)) = ix1 n :=
    funext fun a => Fin.ext (by match a with | ⟨0, _⟩ => rfl)
  rw [eb]
  refine dense_intro _ x10 x11 n _ _ (fun k => ?_) rfl
  have el : lidx_main_v61 (ix2 i n) k = ix2 i k :=
    funext fun a => Fin.ext (by match a with | ⟨0, _⟩ => rfl | ⟨1, _⟩ => rfl)
  have er : ridx_main_v61 (ix2 i n) k = ix2 k n :=
    funext fun a => Fin.ext (by match a with | ⟨0, _⟩ => rfl | ⟨1, _⟩ => rfl)
  rw [el, er, r2_at]

/-- The reference's second result is the specification's. -/
theorem out_eq (x0 : (⟨S4096x3x36, .f32⟩ : BufTy).Contents (Elt Ideal)) (x1 : (⟨S4096x4096x3, .f32⟩ : BufTy).Contents (Elt Ideal)) (x2 : (⟨S36x6, .f32⟩ : BufTy).Contents (Elt Ideal)) (x3 : (⟨S6, .f32⟩ : BufTy).Contents (Elt Ideal))
    (x4 : (⟨S18x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) (x10 : (⟨S256x2, .f32⟩ : BufTy).Contents (Elt Ideal)) (x11 : (⟨S2, .f32⟩ : BufTy).Contents (Elt Ideal)) :
    Cert.ReferenceIdeal.Read.val_main_v64 (F := Ideal) x0 x1 x2 x3 x4 x5 x6 x7 x8 x9 x10 x11
      = Cert.Spec.G11 x1 x0 x2 x3 x4 x5 x6 x7 x8 x9 x10 x11 :=
  funext fun idx => (congrArg (val_main_v64 (F := Ideal) x0 x1 x2 x3 x4 x5 x6 x7 x8 x9 x10 x11) (eq_ix2 idx)).trans
    (h3_at x0 x1 x2 x3 x4 x5 x6 x7 x8 x9 x10 x11 (idx 0) (idx 1))

end Cert.RefValue

end
-- ==== Proof.lean ====
/-
  The certificate of a graph-message-passing kernel against its plain reference.

  With `a` the three stacked 4096 × 4096 adjacency matrices and `feat j t` one affine layer of agent `j`'s observations at
  step `t`, both programs return, for every agent `i`, the 18 numbers
      msg 2 i  |  msg 1 i · rowsum 2 i  |  (msg 0 i · rowsum 1 i) · rowsum 2 i,
  where `msg t i = ∑ j, a i j t · feat j t` and `rowsum t i = ∑ j, a i j t`, and a four-layer perceptron of them.
  The reference computes the three steps one after another (its all-zero starting block is multiplied through and
  dropped by the last slice). The kernel flattens the adjacency to rows of 12288 positions `3 j + t`, builds a
  20 × 12288 selector whose rows hold the features of one step (zero at the other steps' positions) or the indicator
  of a step, and gets all of `msg 0, msg 1, msg 2, rowsum 1, rowsum 2` from ONE contraction per row, done in four chunks
  of 3072 positions, 256 rows per grid point; the perceptron runs on each block of rows. At the ideal values the two
  agree exactly: regrouping a finite sum needs only commutativity and associativity, and the selector's zeros and ones
  need only `x · 0 = 0` and `x · 1 = x`, which hold for every extended real — the precondition is never opened.

  The modules: `Spec` (the common function of the arguments), `SelSum` (the contraction collapses to the messages
  and row sums), `KernelRow` (the body's arithmetic at an entry of a block), `KernelOut` (what a run of the body leaves
  in each result block), `KernelBlock` (a result block against the specification), `Prelude` (the arrays the kernel
  program builds before the call), `KernelValue` (the kernel's result arrays), `RefValue` (the reference's result
  arrays). The frames are the generated ones; the reference's is its generated run with the results dropped.
-/
import proofs.«111064_j25305947308075_2_alg».proof.Defs
import proofs.«111064_j25305947308075_2_alg».proof.Proof.Gen.Kernel
import proofs.«111064_j25305947308075_2_alg».proof.Proof.Gen.Kernel.Skeleton
import proofs.«111064_j25305947308075_2_alg».proof.Proof.Gen.Kernel.Launch
import proofs.«111064_j25305947308075_2_alg».proof.Proof.Gen.Kernel.Points
import proofs.«111064_j25305947308075_2_alg».proof.Proof.Gen.Kernel.Frame
import proofs.«111064_j25305947308075_2_alg».proof.Proof.Gen.KernelIdeal
import proofs.«111064_j25305947308075_2_alg».proof.Proof.Gen.KernelIdeal.Skeleton
import proofs.«111064_j25305947308075_2_alg».proof.Proof.Gen.KernelIdeal.Launch
import proofs.«111064_j25305947308075_2_alg».proof.Proof.Gen.KernelIdeal.Points
import proofs.«111064_j25305947308075_2_alg».proof.Proof.Gen.KernelIdeal.Frame
import proofs.«111064_j25305947308075_2_alg».proof.Proof.Gen.ReferenceIdeal
import proofs.«111064_j25305947308075_2_alg».proof.Proof.Gen.Pre_finite_inputs
import proofs.«111064_j25305947308075_2_alg».proof.Proof.Gen.KernelIdeal.Value
import proofs.«111064_j25305947308075_2_alg».proof.Proof.Gen.ReferenceIdeal.Run
import proofs.«111064_j25305947308075_2_alg».proof.Proof.Gen.ReferenceIdeal.Read
import proofs.«111064_j25305947308075_2_alg».proof.Proof.KernelValue
import proofs.«111064_j25305947308075_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- From memories agreeing on the arguments, the idealized kernel and the idealized reference both end with each result
    at the specification's function of those arguments. -/
theorem algebraic : Cert.algebraic_KernelIdeal_ReferenceIdeal := by
  intro m ρ m' ρ' _ hagree
  refine ⟨fun c => Cert.KernelIdeal.Final.R10 m c, fun c => Cert.KernelIdeal.Final.R11 m c, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v45_eq, Cert.RefValue.agg_eq, a0, a1, a2, a3]
  · obtain ⟨a0, a1, a2, a3, a4, a5, a6, a7, a8, a9, a10, a11⟩ := hagree c
    rw [Cert.ReferenceIdeal.Read.val_main_v64_eq, Cert.RefValue.out_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
